-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S1600000x8 : Shape := ⟨2, ![1600000, 8]⟩
abbrev S2x1600000 : Shape := ⟨2, ![2, 1600000]⟩
abbrev S1600000 : Shape := ⟨1, ![1600000]⟩
abbrev S100000 : Shape := ⟨1, ![100000]⟩
abbrev S16x128 : Shape := ⟨2, ![16, 128]⟩
abbrev S8x128 : Shape := ⟨2, ![8, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S1600000x8 : S_.BroadcastsInDim S1600000x8 (![] : Fin 0 → Fin S1600000x8.rank)
  reducesTo_S1600000x8_S_d0_1 : S1600000x8.ReducesTo [0, 1] S_
  bcast_S_S1600000 : S_.BroadcastsInDim S1600000 (![] : Fin 0 → Fin S1600000.rank)
  reducesTo_S1600000_S_d0 : S1600000.ReducesTo [0] S_
  bcast_S_S16x128 : S_.BroadcastsInDim S16x128 (![] : Fin 0 → Fin S16x128.rank)
  reducesTo_S16x128_S_d0_1 : S16x128.ReducesTo [0, 1] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128x1 .f32 := Host.absf main_arg17
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg18
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg14 : FVec F S128 .f32) (main_arg15 : FVec F S128x128 .f32) (main_arg16 : FVec F S128 .f32) (main_arg17 : FVec F S128x1 .f32) (main_arg18 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg15
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_v63 main_v67

def fn_part2 {F : FTy → Type} [FloatOps F] (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_v48 main_v49 main_v50

def fn_part1 {F : FTy → Type} [FloatOps F] (main_arg7 : FVec F S8x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) (main_v13 : IVec S_ 1) (main_v16 : IVec S16x128 1) : IVec S_ 1 :=
  let main_c_5 : IVec S_ 1 := constantI S_ 1 1#1
  let main_v17 : IVec S_ 1 := (fun x v => Host.reduce IntOp.andi x v reducesTo_S16x128_S_d0_1 h_S_) main_v16 main_c_5
  let main_v18 : IVec S_ 1 := andi main_v13 main_v17
  let main_v19 : FVec F S8x128 .f32 := Host.absf main_arg7
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_arg17 main_arg18 main_v33

def fn {F : FTy → Type} [FloatOps F] (main_arg0 : FVec F S100000x16 .f32) (main_arg1 : FVec F S1600000x8 .f32) (main_arg2 : IVec S2x1600000 32) (main_arg3 : IVec S2x1600000 32) (main_arg4 : FVec F S1600000 .f32) (main_arg5 : IVec S100000 32) (main_arg6 : FVec F S16x128 .f32) (main_arg7 : FVec F S8x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S1600000x8 .f32 := Host.absf main_arg1
  let main_cst_0 : FVec F S_ .f32 := constant S_ .f32 0x7F800000#32
  let main_v5 : FVec F S1600000x8 .f32 := broadcastInDim S1600000x8 ![] bcast_S_S1600000x8 main_cst_0
  let main_v6 : IVec S1600000x8 1 := cmpf .olt main_v4 main_v5
  let main_c_1 : IVec S_ 1 := constantI S_ 1 1#1
  let main_v7 : IVec S_ 1 := (fun x v => Host.reduce IntOp.andi x v reducesTo_S1600000x8_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S16x128 .f32 := Host.absf main_arg6
  let main_cst_4 : FVec F S_ .f32 := constant S_ .f32 0x7F800000#32
  let main_v15 : FVec F S16x128 .f32 := broadcastInDim S16x128 ![] bcast_S_S16x128 main_cst_4
  let main_v16 : IVec S16x128 1 := cmpf .olt main_v14 main_v15
  fn_part1 (F := F) main_arg7 main_arg8 main_arg9 main_arg10 main_arg11 main_arg12 main_arg13 main_arg14 main_arg15 main_arg16 main_arg17 main_arg18 main_v13 main_v16
-- ==== Kernel.lean ====
abbrev S100000x16 : Shape := ⟨2, ![100000, 16]⟩
abbrev S1600000x8 : Shape := ⟨2, ![1600000, 8]⟩
abbrev S2x1600000 : Shape := ⟨2, ![2, 1600000]⟩
abbrev S1600000 : Shape := ⟨1, ![1600000]⟩
abbrev S100000 : Shape := ⟨1, ![100000]⟩
abbrev S16x128 : Shape := ⟨2, ![16, 128]⟩
abbrev S8x128 : Shape := ⟨2, ![8, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1600000x128 : Shape := ⟨2, ![1600000, 128]⟩
abbrev S8000x8 : Shape := ⟨2, ![8000, 8]⟩
abbrev S8000x128 : Shape := ⟨2, ![8000, 128]⟩
abbrev S1x1600000 : Shape := ⟨2, ![1, 1600000]⟩
abbrev S_ : Shape := ⟨0, ![]⟩
abbrev S100000x128 : Shape := ⟨2, ![100000, 128]⟩
abbrev S1600000x1 : Shape := ⟨2, ![1600000, 1]⟩
abbrev S5000x16 : Shape := ⟨2, ![5000, 16]⟩
abbrev S5000x128 : Shape := ⟨2, ![5000, 128]⟩
abbrev S1x128 : Shape := ⟨2, ![1, 128]⟩
abbrev S2048x128 : Shape := ⟨2, ![2048, 128]⟩
abbrev S100000x1 : Shape := ⟨2, ![100000, 1]⟩
abbrev S2048x1 : Shape := ⟨2, ![2048, 1]⟩
abbrev S1x1 : Shape := ⟨2, ![1, 1]⟩

abbrev nBuf : Space → Nat
  | .hbm => 90
  | .vmem => 37
  | .smem => 0
  | _ => 0

abbrev bufTy : (tb : Table) → Fin (tcTables nBuf tb) → BufTy
  | .hbm, ⟨0, _⟩ => ⟨S100000x16, .f32⟩
  | .hbm, ⟨1, _⟩ => ⟨S1600000x8, .f32⟩
  | .hbm, ⟨2, _⟩ => ⟨S2x1600000, .i32⟩
  | .hbm, ⟨3, _⟩ => ⟨S2x1600000, .i32⟩
  | .hbm, ⟨4, _⟩ => ⟨S1600000, .f32⟩
  | .hbm, ⟨5, _⟩ => ⟨S100000, .i32⟩
  | .hbm, ⟨6, _⟩ => ⟨S16x128, .f32⟩
  | .hbm, ⟨7, _⟩ => ⟨S8x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S1600000x128, .f32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x128, .f32⟩
  | .hbm, ⟨27, _⟩ => ⟨S1x1600000, .i32⟩
  | .hbm, ⟨28, _⟩ => ⟨S1600000, .i32⟩
  | .hbm, ⟨29, _⟩ => ⟨S1x1600000, .i32⟩
  | .hbm, ⟨30, _⟩ => ⟨S1600000, .i32⟩
  | .hbm, ⟨31, _⟩ => ⟨S100000x128, .f32⟩
  | .hbm, ⟨32, _⟩ => ⟨S1600000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x128, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .f32⟩
  | .hbm, ⟨49, _⟩ => ⟨S1600000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S1600000x1, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S_, .f32⟩
  | .hbm, ⟨83, _⟩ => ⟨S100000x128, .f32⟩
  | .hbm, ⟨84, _⟩ => ⟨S100000x128, .f32⟩
  | .hbm, ⟨85, _⟩ => ⟨S_, .f32⟩
  | .hbm, ⟨86, _⟩ => ⟨S2048x128, .f32⟩
  | .hbm, ⟨87, _⟩ => ⟨S100000x1, .i32⟩
  | .hbm, ⟨88, _⟩ => ⟨S2048x128, .f32⟩
  | .hbm, ⟨89, _⟩ => ⟨S2048x1, .f32⟩
  | .local _ .vmem, ⟨0, _⟩ => ⟨S8000x8, .f32⟩
  | .local _ .vmem, ⟨1, _⟩ => ⟨S8000x8, .f32⟩
  | .local _ .vmem, ⟨2, _⟩ => ⟨S8x128, .f32⟩
  | .local _ .vmem, ⟨3, _⟩ => ⟨S8000x128, .f32⟩
  | .local _ .vmem, ⟨4, _⟩ => ⟨S8000x128, .f32⟩
  | .local _ .vmem, ⟨5, _⟩ => ⟨S5000x16, .f32⟩
  | .local _ .vmem, ⟨6, _⟩ => ⟨S5000x16, .f32⟩
  | .local _ .vmem, ⟨7, _⟩ => ⟨S5000x128, .f32⟩
  | .local _ .vmem, ⟨8, _⟩ => ⟨S5000x128, .f32⟩
  | .local _ .vmem, ⟨9, _⟩ => ⟨S16x128, .f32⟩
  | .local _ .vmem, ⟨10, _⟩ => ⟨S128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S128, .f32⟩
  | .local _ .vmem, ⟨29, _⟩ => ⟨S5000x128, .f32⟩
  | .local _ .vmem, ⟨30, _⟩ => ⟨S5000x128, .f32⟩
  | .local _ .vmem, ⟨31, _⟩ => ⟨S2048x128, .f32⟩
  | .local _ .vmem, ⟨32, _⟩ => ⟨S128x128, .f32⟩
  | .local _ .vmem, ⟨33, _⟩ => ⟨S128, .f32⟩
  | .local _ .vmem, ⟨34, _⟩ => ⟨S128x1, .f32⟩
  | .local _ .vmem, ⟨35, _⟩ => ⟨S1, .f32⟩
  | .local _ .vmem, ⟨36, _⟩ => ⟨S2048x1, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_c_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_4 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_5 : Ref sig .tc := ⟨.hbm, 67, rfl⟩
abbrev main_v41 : Ref sig .tc := ⟨.hbm, 68, rfl⟩
abbrev main_v42 : Ref sig .tc := ⟨.hbm, 69, rfl⟩
abbrev main_c_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_7 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_8 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem3_1 : DmaSem sig := 30
abbrev cc5_sem0_0 : DmaSem sig := 31
abbrev cc5_sem1_0 : DmaSem sig := 32
abbrev cc5_sem2_0 : DmaSem sig := 33
abbrev cc5_sem3_0 : DmaSem sig := 34
abbrev cc5_sem4_0 : DmaSem sig := 35
abbrev cc5_sem5_0 : DmaSem sig := 36

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S2048x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S2048x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  inb_S8000x8_S8000x8_0_0 : ∀ a, (![0, 0] : Fin 2 → Nat) a + S8000x8.size a ≤ S8000x8.size a
  h_S8000x8 : 0 < S8000x8.numel
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S8000x128_S8000x128_0_0 : ∀ a, (![0, 0] : Fin 2 → Nat) a + S8000x128.size a ≤ S8000x128.size a
  h_S8000x128 : 0 < S8000x128.numel
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  inb_S5000x16_S5000x16_0_0 : ∀ a, (![0, 0] : Fin 2 → Nat) a + S5000x16.size a ≤ S5000x16.size a
  h_S5000x16 : 0 < S5000x16.numel
  inb_S16x128_S16x128_0_0 : ∀ a, (![0, 0] : Fin 2 → Nat) a + S16x128.size a ≤ S16x128.size a
  h_S16x128 : 0 < S16x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S2x1600000_S1x1600000_0_0 : S2x1600000.Slices ![0, 0] S1x1600000
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S8000x8_S8x128_S8000x128_1_0_0_1_n_n_wf : DotDims.WF S8000x8 S8x128 S8000x128 [1] [0] [0] [1] [] []
  scatter_S100000x128_S1600000x1_S1600000x128_1_0_0_1_wf : ScatterDims.WF S100000x128 S1600000x1 S1600000x128 [1] [0] [0] 1
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x8.size a ≤ S1600000x8.size a
  hwx0_0 : ∀ i : grid0.Coords, EltTy.bits .f32 = 32 ∨ (Rect.block (s := S1600000x8) S8000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S8x128.size a
  hwx0_1 : ∀ i : grid0.Coords, EltTy.bits .f32 = 32 ∨ (Rect.block (s := S8x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S1600000x128.size a
  hwx0_2 : ∀ i : grid0.Coords, EltTy.bits .f32 = 32 ∨ (Rect.block (s := S1600000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S16x128.size a
  hwx1_2 : ∀ i : grid1.Coords, EltTy.bits .f32 = 32 ∨ (Rect.block (s := S16x128) S16x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S2048x128.size a
  hwx5_0 : ∀ i : grid5.Coords, EltTy.bits .f32 = 32 ∨ (Rect.block (s := S2048x128) S2048x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x1.size a ≤ S128x1.size a
  hwx5_3 : ∀ i : grid5.Coords, EltTy.bits .f32 = 32 ∨ (Rect.block (s := S128x1) S128x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1.size a ≤ S1.size a
  hwx5_4 : ∀ i : grid5.Coords, EltTy.bits .f32 = 32 ∨ (Rect.block (s := S1) S1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S2048x1.size a ≤ S2048x1.size a
  hwx5_5 : ∀ i : grid5.Coords, EltTy.bits .f32 = 32 ∨ (Rect.block (s := S2048x1) S2048x1.size (cc5_transform_5 i) (hinb5_5 i)).WholeWords (EltTy.packing .f32)

variable [Facts₀]

def dot_S8000x8_S8x128_S8000x128_1_0_0_1_n_n : DotDims S8000x8 S8x128 S8000x128 where
  lhsContracting := [1]
  rhsContracting := [0]
  lhsNonContracting := [0]
  rhsNonContracting := [1]
  lhsBatch := []
  rhsBatch := []
  wf := dot_S8000x8_S8x128_S8000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg1) S8000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S16x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v24) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg12) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v38) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v39) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v57) S2048x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg15) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg16) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg17) S128x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg18) S1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v58) S2048x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x16 : Shape := ⟨2, ![100000, 16]⟩
abbrev S1600000x8 : Shape := ⟨2, ![1600000, 8]⟩
abbrev S2x1600000 : Shape := ⟨2, ![2, 1600000]⟩
abbrev S1600000 : Shape := ⟨1, ![1600000]⟩
abbrev S100000 : Shape := ⟨1, ![100000]⟩
abbrev S16x128 : Shape := ⟨2, ![16, 128]⟩
abbrev S8x128 : Shape := ⟨2, ![8, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1600000x128 : Shape := ⟨2, ![1600000, 128]⟩
abbrev S1x1600000 : Shape := ⟨2, ![1, 1600000]⟩
abbrev S_ : Shape := ⟨0, ![]⟩
abbrev S100000x128 : Shape := ⟨2, ![100000, 128]⟩
abbrev S1600000x1 : Shape := ⟨2, ![1600000, 1]⟩
abbrev S1x128 : Shape := ⟨2, ![1, 128]⟩
abbrev S2048x128 : Shape := ⟨2, ![2048, 128]⟩
abbrev S100000x1 : Shape := ⟨2, ![100000, 1]⟩
abbrev S2048x1 : Shape := ⟨2, ![2048, 1]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S1600000x8, .f32⟩
  | .hbm, ⟨2, _⟩ => ⟨S2x1600000, .i32⟩
  | .hbm, ⟨3, _⟩ => ⟨S2x1600000, .i32⟩
  | .hbm, ⟨4, _⟩ => ⟨S1600000, .f32⟩
  | .hbm, ⟨5, _⟩ => ⟨S100000, .i32⟩
  | .hbm, ⟨6, _⟩ => ⟨S16x128, .f32⟩
  | .hbm, ⟨7, _⟩ => ⟨S8x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S1600000x128, .f32⟩
  | .hbm, ⟨20, _⟩ => ⟨S1x1600000, .i32⟩
  | .hbm, ⟨21, _⟩ => ⟨S1600000, .i32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S1x1600000, .i32⟩
  | .hbm, ⟨35, _⟩ => ⟨S1600000, .i32⟩
  | .hbm, ⟨36, _⟩ => ⟨S1x1600000, .i32⟩
  | .hbm, ⟨37, _⟩ => ⟨S1600000, .i32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S1600000x1, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S1600000x1, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x128, .f32⟩
  | .hbm, ⟨76, _⟩ => ⟨S1600000x128, .f32⟩
  | .hbm, ⟨77, _⟩ => ⟨S_, .f32⟩
  | .hbm, ⟨78, _⟩ => ⟨S100000x128, .f32⟩
  | .hbm, ⟨79, _⟩ => ⟨S1600000x1, .i32⟩
  | .hbm, ⟨80, _⟩ => ⟨S100000x128, .f32⟩
  | .hbm, ⟨81, _⟩ => ⟨S_, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S1600000x1, .f32⟩
  | .hbm, ⟨89, _⟩ => ⟨S_, .i32⟩
  | .hbm, ⟨90, _⟩ => ⟨S1600000, .i32⟩
  | .hbm, ⟨91, _⟩ => ⟨S1600000, .i1⟩
  | .hbm, ⟨92, _⟩ => ⟨S_, .i32⟩
  | .hbm, ⟨93, _⟩ => ⟨S1600000, .i32⟩
  | .hbm, ⟨94, _⟩ => ⟨S1600000, .i32⟩
  | .hbm, ⟨95, _⟩ => ⟨S1600000, .i32⟩
  | .hbm, ⟨96, _⟩ => ⟨S1600000x1, .i32⟩
  | .hbm, ⟨97, _⟩ => ⟨S1600000x128, .f32⟩
  | .hbm, ⟨98, _⟩ => ⟨S1600000x128, .f32⟩
  | .hbm, ⟨99, _⟩ => ⟨S1600000x128, .f32⟩
  | .hbm, ⟨100, _⟩ => ⟨S_, .f32⟩
  | .hbm, ⟨101, _⟩ => ⟨S100000x128, .f32⟩
  | .hbm, ⟨102, _⟩ => ⟨S1600000x1, .i32⟩
  | .hbm, ⟨103, _⟩ => ⟨S100000x128, .f32⟩
  | .hbm, ⟨104, _⟩ => ⟨S_, .f32⟩
  | .hbm, ⟨105, _⟩ => ⟨S100000x128, .f32⟩
  | .hbm, ⟨106, _⟩ => ⟨S100000x128, .f32⟩
  | .hbm, ⟨107, _⟩ => ⟨S_, .f32⟩
  | .hbm, ⟨108, _⟩ => ⟨S2048x128, .f32⟩
  | .hbm, ⟨109, _⟩ => ⟨S100000x1, .i32⟩
  | .hbm, ⟨110, _⟩ => ⟨S2048x128, .f32⟩
  | .hbm, ⟨111, _⟩ => ⟨S2048x128, .f32⟩
  | .hbm, ⟨112, _⟩ => ⟨S1x128, .f32⟩
  | .hbm, ⟨113, _⟩ => ⟨S2048x128, .f32⟩
  | .hbm, ⟨114, _⟩ => ⟨S2048x128, .f32⟩
  | .hbm, ⟨115, _⟩ => ⟨S_, .f32⟩
  | .hbm, ⟨116, _⟩ => ⟨S2048x128, .f32⟩
  | .hbm, ⟨117, _⟩ => ⟨S2048x128, .f32⟩
  | .hbm, ⟨118, _⟩ => ⟨S2048x1, .f32⟩
  | .hbm, ⟨119, _⟩ => ⟨S1x1, .f32⟩
  | .hbm, ⟨120, _⟩ => ⟨S2048x1, .f32⟩
  | .hbm, ⟨121, _⟩ => ⟨S2048x1, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call0_cst : Ref sig .tc := ⟨.hbm, 31, rfl⟩
abbrev main_call0_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call1_cst : Ref sig .tc := ⟨.hbm, 58, rfl⟩
abbrev main_call1_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_c_2 : Ref sig .tc := ⟨.hbm, 66, rfl⟩
abbrev main_v39 : Ref sig .tc := ⟨.hbm, 67, rfl⟩
abbrev main_v40 : Ref sig .tc := ⟨.hbm, 68, rfl⟩
abbrev main_c_3 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_4 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call2_cst : Ref sig .tc := ⟨.hbm, 81, rfl⟩
abbrev main_call2_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_5 : Ref sig .tc := ⟨.hbm, 89, rfl⟩
abbrev main_v57 : Ref sig .tc := ⟨.hbm, 90, rfl⟩
abbrev main_v58 : Ref sig .tc := ⟨.hbm, 91, rfl⟩
abbrev main_c_6 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_7 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_call3_cst : Ref sig .tc := ⟨.hbm, 104, rfl⟩
abbrev main_call3_v0 : Ref sig .tc := ⟨.hbm, 105, rfl⟩
abbrev main_v69 : Ref sig .tc := ⟨.hbm, 106, rfl⟩
abbrev main_cst_8 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_call4_cst : Ref sig .tc := ⟨.hbm, 115, rfl⟩
abbrev main_call4_v0 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S100000x128 : S_.BroadcastsInDim S100000x128 (![] : Fin 0 → Fin S100000x128.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S2048x128 : S_.BroadcastsInDim S2048x128 (![] : Fin 0 → Fin S2048x128.rank)
  bcast_S100000_S100000x1_0 : S100000.BroadcastsInDim S100000x1 (![0] : Fin 1 → Fin S100000x1.rank)
  bcast_S1x128_S2048x128_0_1 : S1x128.BroadcastsInDim S2048x128 (![0, 1] : Fin 2 → Fin S2048x128.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  dot_S1600000x8_S8x128_S1600000x128_1_0_0_1_n_n_wf : DotDims.WF S1600000x8 S8x128 S1600000x128 [1] [0] [0] [1] [] []
  scatter_S100000x128_S1600000x1_S1600000x128_1_0_0_1_wf : ScatterDims.WF S100000x128 S1600000x1 S1600000x128 [1] [0] [0] 1
  dot_S100000x16_S16x128_S100000x128_1_0_0_1_n_n_wf : DotDims.WF S100000x16 S16x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S2048x128_S100000x1_S100000x128_1_0_0_1_wf : ScatterDims.WF S2048x128 S100000x1 S100000x128 [1] [0] [0] 1
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []

variable [Facts₀]

def dot_S1600000x8_S8x128_S1600000x128_1_0_0_1_n_n : DotDims S1600000x8 S8x128 S1600000x128 where
  lhsContracting := [1]
  rhsContracting := [0]
  lhsNonContracting := [0]
  rhsNonContracting := [1]
  lhsBatch := []
  rhsBatch := []
  wf := dot_S1600000x8_S8x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S2048x128_S100000x1_S100000x128_1_0_0_1 : ScatterDims S2048x128 S100000x1 S100000x128 where
  updateWindowDims := [1]
  insertedWindowDims := [0]
  scatterDimsToOperandDims := [0]
  indexVectorDim := 1
  wf := scatter_S2048x128_S100000x1_S100000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

class Facts : Prop extends Facts₀ where

variable [Facts]
-- ==== Proof.KernelRun.lean ====
/-
  The kernel's run with its result named.

  The program is six vector-unit regions among five stretches of host operations.  Every weakly fair execution from a
  memory with zero counters terminates without a fault; at the end each argument array is as launched, and the result
  array holds what the fold of the eleven segments leaves in it: the launch contents pushed through region 0's
  write-backs, the first host stretch, region 1's write-backs, and so on to region 5's (the valuation after the last
  segment, read at the result buffer).  The run is the same launch over the same segments as the frame's; only the
  final state is read at one more buffer.
-/
import proofs.«145433_j32727650796179_1_alg».proof.Proof.Gen.KernelIdeal.Frame

set_option maxRecDepth 16384

noncomputable section

namespace Cert.Gnn.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last segment's contents and
    every argument array as launched. -/
theorem run_result : θ_run defs (onTc (τ := τ) (main (F := F))) ⟨m, fun _ => 0, ρ⟩ (fun r => ∀ c : Dev nD,
      r.2.mem ((c.tc : Thread nD τ).loc main_v58) = W11 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v58 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c),
       (h c _ (mem_uc main_arg18 (by decide))).trans (W11_main_arg18 m ρ c)⟩)

end Cert.Gnn.KernelRun

end
-- ==== Proof.LibDotAt.lean ====
/-
  A matrix product read at one entry.

  For dimension numbers that contract the second axis of an M × K left operand with the first axis of a K × N right
  operand, with no batch axis, both the vector unit's matmul into a zero accumulator and the host's dot_general are, at
  the ideal values and at the output entry (p, q), the plain sum  Σ_{k < K} l[p,k] · r[k,q].  The four hypotheses say
  where the dimension numbers send an output index and a contraction index; for a printed record each is one line
  (unfold the operand index and decide which axes are batch, kept or contracted). Any extents.
-/
import Idealize.ShloMosaic.PureOps.Ideal.Laws
import Idealize.ShloMosaic.Lib.ValueIdx

noncomputable section

open scoped BigOperators

namespace Cert.LibDotAt

open Idealize.ShloMosaic Idealize.ShloMosaic.ValueIdx

variable {M K N : Nat} {φ₁ φ₂ : FTy}

/-- The operand indices of a plain M×K by K×N product, once the contraction index is the coordinate `k`. -/
theorem operand_idx (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (p : Fin M) (q : Fin N) (k : Fin K) :
    D.lhsIdx (ix2 p q) ((contrEquiv1 D K hr hs).symm k) = ix2 p k
      ∧ D.rhsIdx (ix2 p q) ((contrEquiv1 D K hr hs).symm k) = ix2 k q := by
  have hk := contrEquiv1_symm_val D K hr hs k
  constructor
  · funext a; apply Fin.ext
    match a with
    | ⟨0, _⟩ => exact hl0 _ _
    | ⟨1, _⟩ => exact (hl1 _ _).trans hk
  · funext a; apply Fin.ext
    match a with
    | ⟨0, _⟩ => exact (hr0 _ _).trans hk
    | ⟨1, _⟩ => exact hr1 _ _

/-- The vector unit's matmul into the zero accumulator, at entry (p, q). -/
theorem matmul_zero_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (l : FVec Ideal ⟨2, ![M, K]⟩ φ₁) (r : FVec Ideal ⟨2, ![K, N]⟩ φ₂)
    (p : Fin M) (q : Fin N) :
    FloatOps.matmul D prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p q k
  rw [el, er]

/-- The host's dot_general, at entry (p, q): the same sum, whatever the schedule. -/
theorem dotGeneral_ix2 (D : DotDims ⟨2, ![M, K]⟩ ⟨2, ![K, N]⟩ ⟨2, ![M, N]⟩) (hr : D.contr.rank = 1)
    (hs : D.contr.size ⟨0, by omega⟩ = K)
    (hl0 : ∀ (j : (⟨2, ![M, N]⟩ : Shape).Idx) (c : D.contr.Idx), (D.lhsIdx j c 0).val = (j 0).val)
    (hl1 : ∀ (j : (⟨2, ![M, N]⟩ : Shape).Idx) (c : D.contr.Idx), (D.lhsIdx j c 1).val = (c ⟨0, by omega⟩).val)
    (hr0 : ∀ (j : (⟨2, ![M, N]⟩ : Shape).Idx) (c : D.contr.Idx), (D.rhsIdx j c 0).val = (c ⟨0, by omega⟩).val)
    (hr1 : ∀ (j : (⟨2, ![M, N]⟩ : Shape).Idx) (c : D.contr.Idx), (D.rhsIdx j c 1).val = (j 1).val)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  rw [Ideal.dotGeneral_apply, ← Equiv.sum_comp (contrEquiv1 D K hr hs).symm]
  refine Finset.sum_congr rfl fun k _ => ?_
  obtain ⟨el, er⟩ := operand_idx D hr hs hl0 hl1 hr0 hr1 p q k
  rw [el, er]

end Cert.LibDotAt

end
-- ==== Proof.LibRowRel.lean ====
/-
  Arrays related row by row.

  Two matrices x : [M, N] and y : [M', N] are related along a map ρ of rows when row p of x is row ρ p of y,
  entry by entry, as extended reals.  Every operation that treats the rows of a matrix separately preserves the
  relation: a slice of columns, a concatenation of two or of six pieces along the columns, a pointwise sum, product, difference, maximum or
  minimum, a pointwise function, a change of float format (the identity on extended reals), the addition of one bias
  row to every row, and a splat constant.  The logistic function of the vector unit is related to the quotient
  1 / (1 + exp (−y)) the host computes, because at the ideal values it is that quotient by definition.  Any extents.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.LibRowRel

open Idealize.ShloMosaic Idealize.ShloMosaic.ValueIdx

variable {M M' : Nat}

/-- Row p of x is row ρ p of y. The left matrix may be in any float format; the right one is in f32 (a host array). -/
def Rel (ρ : Fin M → Fin M') {N : Nat} {φ : FTy} (x : FVec Ideal ⟨2, ![M, N]⟩ φ) (y : FVec Ideal ⟨2, ![M', N]⟩ .f32) : Prop :=
  ∀ (p : Fin M) (j : Fin N), (x (ix2 p j) : EReal) = y (ix2 (ρ p) j)

variable {ρ : Fin M → Fin M'}

/-- Columns o … o + n − 1 of related matrices are related. -/
theorem Rel.slice {N n : Nat} {φ : FTy} {x : FVec Ideal ⟨2, ![M, N]⟩ φ} {y : FVec Ideal ⟨2, ![M', N]⟩ .f32} (h : Rel ρ x y) (o : Nat)
    (hx : (⟨2, ![M, N]⟩ : Shape).Slices ![0, o] ⟨2, ![M, n]⟩) (hy : (⟨2, ![M', N]⟩ : Shape).Slices ![0, o] ⟨2, ![M', n]⟩) :
    Rel ρ (φ := φ) (extractStridedSlice ⟨2, ![M, n]⟩ ![0, o] x hx) (extractStridedSlice ⟨2, ![M', n]⟩ ![0, o] y hy) := fun p j => by
  rw [slice2_axis1_eq o x hx p j, slice2_axis1_eq o y hy (ρ p) j]
  exact h p _

/-- Two related pairs laid side by side are related. -/
theorem Rel.concat2 {a b c : Nat} {φ : FTy} {x₁ : FVec Ideal ⟨2, ![M, a]⟩ φ} {x₂ : FVec Ideal ⟨2, ![M, b]⟩ φ}
    {y₁ : FVec Ideal ⟨2, ![M', a]⟩ .f32} {y₂ : FVec Ideal ⟨2, ![M', b]⟩ .f32} (h₁ : Rel ρ x₁ y₁) (h₂ : Rel ρ x₂ y₂)
    (hx : Shape.Concatenates [⟨2, ![M, a]⟩, ⟨2, ![M, b]⟩] ⟨2, ![M, c]⟩ 1)
    (hy : Shape.Concatenates [⟨2, ![M', a]⟩, ⟨2, ![M', b]⟩] ⟨2, ![M', c]⟩ 1) :
    Rel ρ (φ := φ) (concatenate ⟨2, ![M, c]⟩ 1 [⟨⟨2, ![M, a]⟩, x₁⟩, ⟨⟨2, ![M, b]⟩, x₂⟩] hx)
      (concatenate ⟨2, ![M', c]⟩ 1 [⟨⟨2, ![M', a]⟩, y₁⟩, ⟨⟨2, ![M', b]⟩, y₂⟩] hy) := fun p j => by
  by_cases hj : j.val < a
  · rw [concatenate_pair_apply_left 1 x₁ x₂ hx (ix2 p j) rfl (ix2 p ⟨j.val, hj⟩)
          (fun d => by match d with | ⟨0, _⟩ => rfl | ⟨1, _⟩ => rfl),
        concatenate_pair_apply_left 1 y₁ y₂ hy (ix2 (ρ p) j) rfl (ix2 (ρ p) ⟨j.val, hj⟩)
          (fun d => by match d with | ⟨0, _⟩ => rfl | ⟨1, _⟩ => rfl)]
    exact h₁ p _
  · have hc : a + (b + 0) = c := hx.2.2
    have hj' : j.val - a < b := by have := j.isLt; omega
    rw [concatenate_pair_apply_right 1 x₁ x₂ hx (ix2 p j) rfl rfl (ix2 p ⟨j.val - a, hj'⟩)
          (fun d hd => by match d with | ⟨0, _⟩ => rfl | ⟨1, _⟩ => exact absurd rfl hd)
          (by show j.val - a + a = j.val; omega),
        concatenate_pair_apply_right 1 y₁ y₂ hy (ix2 (ρ p) j) rfl rfl (ix2 (ρ p) ⟨j.val - a, hj'⟩)
          (fun d hd => by match d with | ⟨0, _⟩ => rfl | ⟨1, _⟩ => exact absurd rfl hd)
          (by show j.val - a + a = j.val; omega)]
    exact h₂ p _

section Pointwise
variable {N : Nat} {φ : FTy} {x x' : FVec Ideal ⟨2, ![M, N]⟩ φ} {y y' : FVec Ideal ⟨2, ![M', N]⟩ .f32}

theorem Rel.addf (h : Rel ρ x y) (h' : Rel ρ x' y') : Rel ρ (addf x x') (addf y y') := fun p j => by
  show (x (ix2 p j) : EReal) + x' (ix2 p j) = y (ix2 (ρ p) j) + y' (ix2 (ρ p) j)
  rw [h p j, h' p j]

theorem Rel.mulf (h : Rel ρ x y) (h' : Rel ρ x' y') : Rel ρ (mulf x x') (mulf y y') := fun p j => by
  show (x (ix2 p j) : EReal) * x' (ix2 p j) = y (ix2 (ρ p) j) * y' (ix2 (ρ p) j)
  rw [h p j, h' p j]

theorem Rel.subf (h : Rel ρ x y) (h' : Rel ρ x' y') : Rel ρ (subf x x') (subf y y') := fun p j => by
  show (x (ix2 p j) : EReal) - x' (ix2 p j) = y (ix2 (ρ p) j) - y' (ix2 (ρ p) j)
  rw [h p j, h' p j]

theorem Rel.maximumf (h : Rel ρ x y) (h' : Rel ρ x' y') : Rel ρ (maximumf x x') (maximumf y y') := fun p j => by
  show max (x (ix2 p j) : EReal) (x' (ix2 p j)) = max (y (ix2 (ρ p) j)) (y' (ix2 (ρ p) j))
  rw [h p j, h' p j]

theorem Rel.minimumf (h : Rel ρ x y) (h' : Rel ρ x' y') : Rel ρ (minimumf x x') (minimumf y y') := fun p j => by
  show min (x (ix2 p j) : EReal) (x' (ix2 p j)) = min (y (ix2 (ρ p) j)) (y' (ix2 (ρ p) j))
  rw [h p j, h' p j]

/-- Sums of three related terms are related however they are grouped: addition of extended reals is associative. -/
theorem Rel.addf_assoc {x'' : FVec Ideal ⟨2, ![M, N]⟩ φ} {y'' : FVec Ideal ⟨2, ![M', N]⟩ .f32}
    (h : Rel ρ x y) (h' : Rel ρ x' y') (h'' : Rel ρ x'' y'') :
    Rel ρ (Idealize.ShloMosaic.addf x (Idealize.ShloMosaic.addf x' x'')) (Idealize.ShloMosaic.addf (Idealize.ShloMosaic.addf y y') y'') := fun p j => by
  show (x (ix2 p j) : EReal) + (x' (ix2 p j) + x'' (ix2 p j)) = y (ix2 (ρ p) j) + y' (ix2 (ρ p) j) + y'' (ix2 (ρ p) j)
  rw [h p j, h' p j, h'' p j, add_assoc]

/-- The vector unit's hyperbolic tangent and the host's are one function of an extended real. -/
theorem Rel.tanh (h : Rel ρ x y) : Rel ρ (tanh x) (Host.tanh y) := fun p j => by
  show Ideal.tanh (x (ix2 p j)) = Ideal.tanh (y (ix2 (ρ p) j))
  rw [h p j]

/-- The vector unit's exponential and the host's are one function of an extended real. -/
theorem Rel.exp (h : Rel ρ x y) : Rel ρ (exp x) (Host.exp y) := fun p j => by
  show Ideal.exp (x (ix2 p j)) = Ideal.exp (y (ix2 (ρ p) j))
  rw [h p j]

/-- A change of float format on the left is the identity on extended reals. -/
theorem Rel.truncf_left {φ' : FTy} (hb : φ'.bits < φ.bits) (h : Rel ρ x y) : Rel ρ (truncf φ' x hb) y := fun p j => h p j

end Pointwise

/-- A broadcast scalar constant read anywhere is the value of its word. -/
theorem splat_apply {t : Shape} (φ : FTy) (w : BitVec φ.bits) (hb : (⟨0, ![]⟩ : Shape).BroadcastsInDim t ![]) (i : t.Idx) :
    broadcastInDim t ![] hb (constant (F := Ideal) ⟨0, ![]⟩ φ w) i = Ideal.ofBits φ w :=
  broadcastInDim_apply ![] hb _ i ix0 (fun a => a.elim0)

/-- The vector unit's splat of a scalar literal and the host's broadcast of the same word are related. -/
theorem Rel.splat {N : Nat} (w : BitVec 32) (hb : (⟨0, ![]⟩ : Shape).BroadcastsInDim ⟨2, ![M', N]⟩ ![]) :
    Rel ρ (φ := .f32) (broadcast ⟨2, ![M, N]⟩ (Scalar.ofBits (F := Ideal) .f32 w))
      (broadcastInDim ⟨2, ![M', N]⟩ ![] hb (constant (F := Ideal) ⟨0, ![]⟩ .f32 w)) := fun p j => by
  rw [splat_apply]; rfl

/-- The vector unit's logistic function is, at the ideal values, the quotient 1 / (1 + exp (−y)) the host spells out
    with the word of 1.0. -/
theorem Rel.logistic {N : Nat} {x : FVec Ideal ⟨2, ![M, N]⟩ .f32} {y : FVec Ideal ⟨2, ![M', N]⟩ .f32} (h : Rel ρ x y)
    (hb hb' : (⟨0, ![]⟩ : Shape).BroadcastsInDim ⟨2, ![M', N]⟩ ![]) :
    Rel ρ (logistic x)
      (Host.divf (broadcastInDim ⟨2, ![M', N]⟩ ![] hb (constant (F := Ideal) ⟨0, ![]⟩ .f32 0x3F800000#32))
        (Idealize.ShloMosaic.addf (broadcastInDim ⟨2, ![M', N]⟩ ![] hb' (constant (F := Ideal) ⟨0, ![]⟩ .f32 0x3F800000#32))
          (Host.exp (Host.negf y)))) := fun p j => by
  show Ideal.logistic (x (ix2 p j))
    = Ideal.div (broadcastInDim ⟨2, ![M', N]⟩ ![] hb (constant (F := Ideal) ⟨0, ![]⟩ .f32 0x3F800000#32) (ix2 (ρ p) j))
        (broadcastInDim ⟨2, ![M', N]⟩ ![] hb' (constant (F := Ideal) ⟨0, ![]⟩ .f32 0x3F800000#32) (ix2 (ρ p) j)
          + Ideal.exp (-(y (ix2 (ρ p) j))))
  rw [splat_apply, Ideal.ofBits_one_f32, h p j]
  rfl

/-- One bias row added to every row: the vector unit broadcasts the row, the host broadcasts it in the two dimensions. -/
theorem Rel.biasRow {N : Nat} {φ : FTy} {b : FVec Ideal ⟨2, ![1, N]⟩ φ} {b' : FVec Ideal ⟨2, ![1, N]⟩ .f32}
    (h : ∀ i, (b i : EReal) = b' i)
    (hb : (⟨2, ![1, N]⟩ : Shape).Broadcasts ⟨2, ![M, N]⟩) (hb' : (⟨2, ![1, N]⟩ : Shape).BroadcastsInDim ⟨2, ![M', N]⟩ ![0, 1]) :
    Rel ρ (φ := φ) (broadcastTo ⟨2, ![M, N]⟩ b hb) (broadcastInDim ⟨2, ![M', N]⟩ ![0, 1] hb' b') := fun p j => by
  rw [broadcastTo_1b_ab_apply b hb p j,
    broadcastInDim_apply ![0, 1] hb' b' (ix2 (ρ p) j) (ix2 (0 : Fin 1) j) (fun a => by
      match a with
      | ⟨0, _⟩ => show (0 : Nat) = if (1 : Nat) = 1 then 0 else _; rw [if_pos rfl]
      | ⟨1, _⟩ =>
        show j.val = if N = 1 then 0 else j.val
        split
        · have := j.isLt; omega
        · rfl)]
  exact h _

/-- Six related pieces laid side by side are related: an entry of the joined matrix comes from the piece whose span of
    columns holds its column, at the same row and at the column less the extents of the pieces before it. -/
theorem Rel.concat6 {a1 a2 a3 a4 a5 a6 c : Nat} {φ : FTy}
    {x1 : FVec Ideal ⟨2, ![M, a1]⟩ φ} {x2 : FVec Ideal ⟨2, ![M, a2]⟩ φ} {x3 : FVec Ideal ⟨2, ![M, a3]⟩ φ}
    {x4 : FVec Ideal ⟨2, ![M, a4]⟩ φ} {x5 : FVec Ideal ⟨2, ![M, a5]⟩ φ} {x6 : FVec Ideal ⟨2, ![M, a6]⟩ φ}
    {y1 : FVec Ideal ⟨2, ![M', a1]⟩ .f32} {y2 : FVec Ideal ⟨2, ![M', a2]⟩ .f32} {y3 : FVec Ideal ⟨2, ![M', a3]⟩ .f32}
    {y4 : FVec Ideal ⟨2, ![M', a4]⟩ .f32} {y5 : FVec Ideal ⟨2, ![M', a5]⟩ .f32} {y6 : FVec Ideal ⟨2, ![M', a6]⟩ .f32}
    (h1 : Rel ρ x1 y1) (h2 : Rel ρ x2 y2) (h3 : Rel ρ x3 y3) (h4 : Rel ρ x4 y4) (h5 : Rel ρ x5 y5) (h6 : Rel ρ x6 y6)
    (hx : Shape.Concatenates [⟨2, ![M, a1]⟩, ⟨2, ![M, a2]⟩, ⟨2, ![M, a3]⟩, ⟨2, ![M, a4]⟩, ⟨2, ![M, a5]⟩, ⟨2, ![M, a6]⟩] ⟨2, ![M, c]⟩ 1)
    (hy : Shape.Concatenates [⟨2, ![M', a1]⟩, ⟨2, ![M', a2]⟩, ⟨2, ![M', a3]⟩, ⟨2, ![M', a4]⟩, ⟨2, ![M', a5]⟩, ⟨2, ![M', a6]⟩] ⟨2, ![M', c]⟩ 1) :
    Rel ρ (φ := φ)
      (concatenate ⟨2, ![M, c]⟩ 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx)
      (concatenate ⟨2, ![M', c]⟩ 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy) := fun p j => by
  have hc : a1 + (a2 + (a3 + (a4 + (a5 + (a6 + 0))))) = c := hx.2.2
  have hjc := j.isLt
  -- the piece that holds column j, from the left
  by_cases c1 : j.val < a1
  · rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 0 (by show (0 : Nat) < 6; decide) _ x1 rfl rfl 0 rfl (ix2 p ⟨j.val, c1⟩)
          (fun d hd => by match d with | ⟨0, _⟩ => rfl | ⟨1, _⟩ => exact absurd rfl hd) (by show 0 + j.val = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 0 (by show (0 : Nat) < 6; decide) _ y1 rfl rfl 0 rfl (ix2 (ρ p) ⟨j.val, c1⟩)
          (fun d hd => by match d with | ⟨0, _⟩ => rfl | ⟨1, _⟩ => exact absurd rfl hd) (by show 0 + j.val = j.val; omega)]
    exact h1 p _
  by_cases c2 : j.val < a1 + a2
  · have hb : j.val - a1 < a2 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 1 (by show (1 : Nat) < 6; decide) _ x2 rfl rfl (a1 + 0) rfl (ix2 p ⟨j.val - a1, hb⟩)
          (fun d hd => by match d with | ⟨0, _⟩ => rfl | ⟨1, _⟩ => exact absurd rfl hd) (by show a1 + 0 + (j.val - a1) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 1 (by show (1 : Nat) < 6; decide) _ y2 rfl rfl (a1 + 0) rfl (ix2 (ρ p) ⟨j.val - a1, hb⟩)
          (fun d hd => by match d with | ⟨0, _⟩ => rfl | ⟨1, _⟩ => exact absurd rfl hd) (by show a1 + 0 + (j.val - a1) = j.val; omega)]
    exact h2 p _
  by_cases c3 : j.val < a1 + a2 + a3
  · have hb : j.val - (a1 + a2) < a3 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 2 (by show (2 : Nat) < 6; decide) _ x3 rfl rfl (a1 + (a2 + 0)) rfl (ix2 p ⟨j.val - (a1 + a2), hb⟩)
          (fun d hd => by match d with | ⟨0, _⟩ => rfl | ⟨1, _⟩ => exact absurd rfl hd) (by show a1 + (a2 + 0) + (j.val - (a1 + a2)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 2 (by show (2 : Nat) < 6; decide) _ y3 rfl rfl (a1 + (a2 + 0)) rfl (ix2 (ρ p) ⟨j.val - (a1 + a2), hb⟩)
          (fun d hd => by match d with | ⟨0, _⟩ => rfl | ⟨1, _⟩ => exact absurd rfl hd) (by show a1 + (a2 + 0) + (j.val - (a1 + a2)) = j.val; omega)]
    exact h3 p _
  by_cases c4 : j.val < a1 + a2 + a3 + a4
  · have hb : j.val - (a1 + a2 + a3) < a4 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 3 (by show (3 : Nat) < 6; decide) _ x4 rfl rfl (a1 + (a2 + (a3 + 0))) rfl (ix2 p ⟨j.val - (a1 + a2 + a3), hb⟩)
          (fun d hd => by match d with | ⟨0, _⟩ => rfl | ⟨1, _⟩ => exact absurd rfl hd) (by show a1 + (a2 + (a3 + 0)) + (j.val - (a1 + a2 + a3)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 3 (by show (3 : Nat) < 6; decide) _ y4 rfl rfl (a1 + (a2 + (a3 + 0))) rfl (ix2 (ρ p) ⟨j.val - (a1 + a2 + a3), hb⟩)
          (fun d hd => by match d with | ⟨0, _⟩ => rfl | ⟨1, _⟩ => exact absurd rfl hd) (by show a1 + (a2 + (a3 + 0)) + (j.val - (a1 + a2 + a3)) = j.val; omega)]
    exact h4 p _
  by_cases c5 : j.val < a1 + a2 + a3 + a4 + a5
  · have hb : j.val - (a1 + a2 + a3 + a4) < a5 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 4 (by show (4 : Nat) < 6; decide) _ x5 rfl rfl (a1 + (a2 + (a3 + (a4 + 0)))) rfl (ix2 p ⟨j.val - (a1 + a2 + a3 + a4), hb⟩)
          (fun d hd => by match d with | ⟨0, _⟩ => rfl | ⟨1, _⟩ => exact absurd rfl hd) (by show a1 + (a2 + (a3 + (a4 + 0))) + (j.val - (a1 + a2 + a3 + a4)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 4 (by show (4 : Nat) < 6; decide) _ y5 rfl rfl (a1 + (a2 + (a3 + (a4 + 0)))) rfl (ix2 (ρ p) ⟨j.val - (a1 + a2 + a3 + a4), hb⟩)
          (fun d hd => by match d with | ⟨0, _⟩ => rfl | ⟨1, _⟩ => exact absurd rfl hd) (by show a1 + (a2 + (a3 + (a4 + 0))) + (j.val - (a1 + a2 + a3 + a4)) = j.val; omega)]
    exact h5 p _
  · have hb : j.val - (a1 + a2 + a3 + a4 + a5) < a6 := by omega
    rw [concatenate_apply_piece 1 [⟨⟨2, ![M, a1]⟩, x1⟩, ⟨⟨2, ![M, a2]⟩, x2⟩, ⟨⟨2, ![M, a3]⟩, x3⟩, ⟨⟨2, ![M, a4]⟩, x4⟩, ⟨⟨2, ![M, a5]⟩, x5⟩, ⟨⟨2, ![M, a6]⟩, x6⟩] hx (ix2 p j) 5 (by show (5 : Nat) < 6; decide) _ x6 rfl rfl (a1 + (a2 + (a3 + (a4 + (a5 + 0))))) rfl (ix2 p ⟨j.val - (a1 + a2 + a3 + a4 + a5), hb⟩)
          (fun d hd => by match d with | ⟨0, _⟩ => rfl | ⟨1, _⟩ => exact absurd rfl hd) (by show a1 + (a2 + (a3 + (a4 + (a5 + 0)))) + (j.val - (a1 + a2 + a3 + a4 + a5)) = j.val; omega),
        concatenate_apply_piece 1 [⟨⟨2, ![M', a1]⟩, y1⟩, ⟨⟨2, ![M', a2]⟩, y2⟩, ⟨⟨2, ![M', a3]⟩, y3⟩, ⟨⟨2, ![M', a4]⟩, y4⟩, ⟨⟨2, ![M', a5]⟩, y5⟩, ⟨⟨2, ![M', a6]⟩, y6⟩] hy (ix2 (ρ p) j) 5 (by show (5 : Nat) < 6; decide) _ y6 rfl rfl (a1 + (a2 + (a3 + (a4 + (a5 + 0))))) rfl (ix2 (ρ p) ⟨j.val - (a1 + a2 + a3 + a4 + a5), hb⟩)
          (fun d hd => by match d with | ⟨0, _⟩ => rfl | ⟨1, _⟩ => exact absurd rfl hd) (by show a1 + (a2 + (a3 + (a4 + (a5 + 0)))) + (j.val - (a1 + a2 + a3 + a4 + a5)) = j.val; omega)]
    exact h6 p _

end Cert.LibRowRel

end
-- ==== Proof.LibRowDot.lean ====
/-
  A matrix product keeps rows related.

  If row p of l is row ρ p of l', and the right operands agree entry by entry, then row p of the vector unit's product
  l · w into the zero accumulator is row ρ p of the host's product l' · w': at the ideal values both are the plain sums
  Σ_k l[p,k] · w[k,q].  The dimension numbers enter through six facts (one contraction axis of extent K; where an output
  index and a contraction index go in each operand), collected in one record.  Any extents.
-/
import proofs.«145433_j32727650796179_1_alg».proof.Proof.LibDotAt
import proofs.«145433_j32727650796179_1_alg».proof.Proof.LibRowRel

noncomputable section

namespace Cert.LibRowRel

open Idealize.ShloMosaic Idealize.ShloMosaic.ValueIdx

/-- Dimension numbers of a plain M×K by K×N product: the second axis of the left operand is contracted with the first of the
    right one, nothing is batched. -/
structure Plain {M K N : Nat} (D : DotDims ⟨2, ![M, K]⟩ ⟨2, ![K, N]⟩ ⟨2, ![M, N]⟩) : Prop where
  rank : D.contr.rank = 1
  size : D.contr.size ⟨0, by omega⟩ = K
  l0 : ∀ (j : (⟨2, ![M, N]⟩ : Shape).Idx) (c : D.contr.Idx), (D.lhsIdx j c 0).val = (j 0).val
  l1 : ∀ (j : (⟨2, ![M, N]⟩ : Shape).Idx) (c : D.contr.Idx), (D.lhsIdx j c 1).val = (c ⟨0, by omega⟩).val
  r0 : ∀ (j : (⟨2, ![M, N]⟩ : Shape).Idx) (c : D.contr.Idx), (D.rhsIdx j c 0).val = (c ⟨0, by omega⟩).val
  r1 : ∀ (j : (⟨2, ![M, N]⟩ : Shape).Idx) (c : D.contr.Idx), (D.rhsIdx j c 1).val = (j 1).val

variable {M M' : Nat} {ρ : Fin M → Fin M'}

/-- Products of related left operands with equal right operands are related. -/
theorem Rel.matmul {K N : Nat} {φ₁ φ₂ : FTy}
    {D : DotDims ⟨2, ![M, K]⟩ ⟨2, ![K, N]⟩ ⟨2, ![M, N]⟩} {D' : DotDims ⟨2, ![M', K]⟩ ⟨2, ![K, N]⟩ ⟨2, ![M', N]⟩}
    (hD : Plain D) (hD' : Plain D')
    {l : FVec Ideal ⟨2, ![M, K]⟩ φ₁} {l' : FVec Ideal ⟨2, ![M', K]⟩ .f32}
    {w : FVec Ideal ⟨2, ![K, N]⟩ φ₂} {w' : FVec Ideal ⟨2, ![K, N]⟩ .f32}
    (hl : Rel ρ l l') (hw : ∀ i, (w i : EReal) = w' i) (prec prec' : Option ContractPrecision) :
    Rel ρ (φ := .f32) (matmul D prec l w (constant (F := Ideal) ⟨2, ![M, N]⟩ .f32 0x00000000#32))
      (Host.dotGeneral D' prec' l' w') := fun p j => by
  show FloatOps.matmul D prec l w (constant (F := Ideal) ⟨2, ![M, N]⟩ .f32 0x00000000#32) (ix2 p j)
    = FloatOps.dotGeneral D' prec' .single l' w' (ix2 (ρ p) j)
  rw [Cert.LibDotAt.matmul_zero_ix2 D hD.rank hD.size hD.l0 hD.l1 hD.r0 hD.r1,
    Cert.LibDotAt.dotGeneral_ix2 D' hD'.rank hD'.size hD'.l0 hD'.l1 hD'.r0 hD'.r1]
  refine Finset.sum_congr rfl fun k _ => ?_
  rw [hl p k, hw (ix2 k j)]

/-- A cast of a vector to its own shape changes nothing. -/
theorem castSelf {s : Shape} {φ : FTy} {x : FVec Ideal s φ} {y : FVec Ideal s .f32} (h : ∀ i, (x i : EReal) = y i)
    (hs : s.ShapeCasts s) : ∀ i, (shapeCast s x hs i : EReal) = y i := by
  rw [shapeCast_self]; exact h

end Cert.LibRowRel

end
-- ==== Proof.Dots.lean ====
/-
  The dimension numbers of every matrix product of the two programs are those of a plain product.

  Each of the kernel's five vector-unit products (an edge block by the edge weights, a node block by the node weights, a
  node block by a layer's weights, the pooled features by the two predictor weights) and each of the reference's five
  whole-array products contracts the second axis of an M × K left operand with the first axis of a K × N right operand
  and batches nothing: one contraction axis of extent K, an output entry (p, q) reading row p of the left operand and
  column q of the right one.
-/
import proofs.«145433_j32727650796179_1_alg».proof.Proof.Gen.KernelIdeal
import proofs.«145433_j32727650796179_1_alg».proof.Proof.Gen.ReferenceIdeal
import proofs.«145433_j32727650796179_1_alg».proof.Proof.LibRowDot

noncomputable section

namespace Cert.Gnn.Dots

open Idealize.ShloMosaic Cert.LibRowRel

/-! ## The kernel's products, one block of rows at a time -/

theorem kernel_8000x8x128 : Plain (M := 8000) (K := 8) (N := 128) Cert.KernelIdeal.dot_S8000x8_S8x128_S8000x128_1_0_0_1_n_n :=
  { rank := rfl
    size := rfl
    l0 := fun j c => by
      unfold DotDims.lhsIdx
      rw [dif_neg (show ¬(0 : Fin 2) ∈ Cert.KernelIdeal.dot_S8000x8_S8x128_S8000x128_1_0_0_1_n_n.lhsBatch by decide), dif_pos (show (0 : Fin 2) ∈ Cert.KernelIdeal.dot_S8000x8_S8x128_S8000x128_1_0_0_1_n_n.lhsNonContracting by decide)]
      rfl
    l1 := fun j c => Cert.KernelIdeal.dot_S8000x8_S8x128_S8000x128_1_0_0_1_n_n.lhsIdx_val_of_single rfl j c
    r0 := fun j c => Cert.KernelIdeal.dot_S8000x8_S8x128_S8000x128_1_0_0_1_n_n.rhsIdx_val_of_single rfl j c
    r1 := fun j c => by
      unfold DotDims.rhsIdx
      rw [dif_neg (show ¬(1 : Fin 2) ∈ Cert.KernelIdeal.dot_S8000x8_S8x128_S8000x128_1_0_0_1_n_n.rhsBatch by decide), dif_pos (show (1 : Fin 2) ∈ Cert.KernelIdeal.dot_S8000x8_S8x128_S8000x128_1_0_0_1_n_n.rhsNonContracting by decide)]
      rfl }

theorem kernel_5000x16x128 : Plain (M := 5000) (K := 16) (N := 128) Cert.KernelIdeal.dot_S5000x16_S16x128_S5000x128_1_0_0_1_n_n :=
  { rank := rfl
    size := rfl
    l0 := fun j c => by
      unfold DotDims.lhsIdx
      rw [dif_neg (show ¬(0 : Fin 2) ∈ Cert.KernelIdeal.dot_S5000x16_S16x128_S5000x128_1_0_0_1_n_n.lhsBatch by decide), dif_pos (show (0 : Fin 2) ∈ Cert.KernelIdeal.dot_S5000x16_S16x128_S5000x128_1_0_0_1_n_n.lhsNonContracting by decide)]
      rfl
    l1 := fun j c => Cert.KernelIdeal.dot_S5000x16_S16x128_S5000x128_1_0_0_1_n_n.lhsIdx_val_of_single rfl j c
    r0 := fun j c => Cert.KernelIdeal.dot_S5000x16_S16x128_S5000x128_1_0_0_1_n_n.rhsIdx_val_of_single rfl j c
    r1 := fun j c => by
      unfold DotDims.rhsIdx
      rw [dif_neg (show ¬(1 : Fin 2) ∈ Cert.KernelIdeal.dot_S5000x16_S16x128_S5000x128_1_0_0_1_n_n.rhsBatch by decide), dif_pos (show (1 : Fin 2) ∈ Cert.KernelIdeal.dot_S5000x16_S16x128_S5000x128_1_0_0_1_n_n.rhsNonContracting by decide)]
      rfl }

theorem kernel_5000x128x128 : Plain (M := 5000) (K := 128) (N := 128) Cert.KernelIdeal.dot_S5000x128_S128x128_S5000x128_1_0_0_1_n_n :=
  { rank := rfl
    size := rfl
    l0 := fun j c => by
      unfold DotDims.lhsIdx
      rw [dif_neg (show ¬(0 : Fin 2) ∈ Cert.KernelIdeal.dot_S5000x128_S128x128_S5000x128_1_0_0_1_n_n.lhsBatch by decide), dif_pos (show (0 : Fin 2) ∈ Cert.KernelIdeal.dot_S5000x128_S128x128_S5000x128_1_0_0_1_n_n.lhsNonContracting by decide)]
      rfl
    l1 := fun j c => Cert.KernelIdeal.dot_S5000x128_S128x128_S5000x128_1_0_0_1_n_n.lhsIdx_val_of_single rfl j c
    r0 := fun j c => Cert.KernelIdeal.dot_S5000x128_S128x128_S5000x128_1_0_0_1_n_n.rhsIdx_val_of_single rfl j c
    r1 := fun j c => by
      unfold DotDims.rhsIdx
      rw [dif_neg (show ¬(1 : Fin 2) ∈ Cert.KernelIdeal.dot_S5000x128_S128x128_S5000x128_1_0_0_1_n_n.rhsBatch by decide), dif_pos (show (1 : Fin 2) ∈ Cert.KernelIdeal.dot_S5000x128_S128x128_S5000x128_1_0_0_1_n_n.rhsNonContracting by decide)]
      rfl }

theorem kernel_2048x128x128 : Plain (M := 2048) (K := 128) (N := 128) Cert.KernelIdeal.dot_S2048x128_S128x128_S2048x128_1_0_0_1_n_n :=
  { rank := rfl
    size := rfl
    l0 := fun j c => by
      unfold DotDims.lhsIdx
      rw [dif_neg (show ¬(0 : Fin 2) ∈ Cert.KernelIdeal.dot_S2048x128_S128x128_S2048x128_1_0_0_1_n_n.lhsBatch by decide), dif_pos (show (0 : Fin 2) ∈ Cert.KernelIdeal.dot_S2048x128_S128x128_S2048x128_1_0_0_1_n_n.lhsNonContracting by decide)]
      rfl
    l1 := fun j c => Cert.KernelIdeal.dot_S2048x128_S128x128_S2048x128_1_0_0_1_n_n.lhsIdx_val_of_single rfl j c
    r0 := fun j c => Cert.KernelIdeal.dot_S2048x128_S128x128_S2048x128_1_0_0_1_n_n.rhsIdx_val_of_single rfl j c
    r1 := fun j c => by
      unfold DotDims.rhsIdx
      rw [dif_neg (show ¬(1 : Fin 2) ∈ Cert.KernelIdeal.dot_S2048x128_S128x128_S2048x128_1_0_0_1_n_n.rhsBatch by decide), dif_pos (show (1 : Fin 2) ∈ Cert.KernelIdeal.dot_S2048x128_S128x128_S2048x128_1_0_0_1_n_n.rhsNonContracting by decide)]
      rfl }

theorem kernel_2048x128x1 : Plain (M := 2048) (K := 128) (N := 1) Cert.KernelIdeal.dot_S2048x128_S128x1_S2048x1_1_0_0_1_n_n :=
  { rank := rfl
    size := rfl
    l0 := fun j c => by
      unfold DotDims.lhsIdx
      rw [dif_neg (show ¬(0 : Fin 2) ∈ Cert.KernelIdeal.dot_S2048x128_S128x1_S2048x1_1_0_0_1_n_n.lhsBatch by decide), dif_pos (show (0 : Fin 2) ∈ Cert.KernelIdeal.dot_S2048x128_S128x1_S2048x1_1_0_0_1_n_n.lhsNonContracting by decide)]
      rfl
    l1 := fun j c => Cert.KernelIdeal.dot_S2048x128_S128x1_S2048x1_1_0_0_1_n_n.lhsIdx_val_of_single rfl j c
    r0 := fun j c => Cert.KernelIdeal.dot_S2048x128_S128x1_S2048x1_1_0_0_1_n_n.rhsIdx_val_of_single rfl j c
    r1 := fun j c => by
      unfold DotDims.rhsIdx
      rw [dif_neg (show ¬(1 : Fin 2) ∈ Cert.KernelIdeal.dot_S2048x128_S128x1_S2048x1_1_0_0_1_n_n.rhsBatch by decide), dif_pos (show (1 : Fin 2) ∈ Cert.KernelIdeal.dot_S2048x128_S128x1_S2048x1_1_0_0_1_n_n.rhsNonContracting by decide)]
      rfl }

/-! ## The reference's products, over whole arrays -/

theorem host_1600000x8x128 : Plain (M := 1600000) (K := 8) (N := 128) Cert.ReferenceIdeal.dot_S1600000x8_S8x128_S1600000x128_1_0_0_1_n_n :=
  { rank := rfl
    size := rfl
    l0 := fun j c => by
      unfold DotDims.lhsIdx
      rw [dif_neg (show ¬(0 : Fin 2) ∈ Cert.ReferenceIdeal.dot_S1600000x8_S8x128_S1600000x128_1_0_0_1_n_n.lhsBatch by decide), dif_pos (show (0 : Fin 2) ∈ Cert.ReferenceIdeal.dot_S1600000x8_S8x128_S1600000x128_1_0_0_1_n_n.lhsNonContracting by decide)]
      rfl
    l1 := fun j c => Cert.ReferenceIdeal.dot_S1600000x8_S8x128_S1600000x128_1_0_0_1_n_n.lhsIdx_val_of_single rfl j c
    r0 := fun j c => Cert.ReferenceIdeal.dot_S1600000x8_S8x128_S1600000x128_1_0_0_1_n_n.rhsIdx_val_of_single rfl j c
    r1 := fun j c => by
      unfold DotDims.rhsIdx
      rw [dif_neg (show ¬(1 : Fin 2) ∈ Cert.ReferenceIdeal.dot_S1600000x8_S8x128_S1600000x128_1_0_0_1_n_n.rhsBatch by decide), dif_pos (show (1 : Fin 2) ∈ Cert.ReferenceIdeal.dot_S1600000x8_S8x128_S1600000x128_1_0_0_1_n_n.rhsNonContracting by decide)]
      rfl }

theorem host_100000x16x128 : Plain (M := 100000) (K := 16) (N := 128) Cert.ReferenceIdeal.dot_S100000x16_S16x128_S100000x128_1_0_0_1_n_n :=
  { rank := rfl
    size := rfl
    l0 := fun j c => by
      unfold DotDims.lhsIdx
      rw [dif_neg (show ¬(0 : Fin 2) ∈ Cert.ReferenceIdeal.dot_S100000x16_S16x128_S100000x128_1_0_0_1_n_n.lhsBatch by decide), dif_pos (show (0 : Fin 2) ∈ Cert.ReferenceIdeal.dot_S100000x16_S16x128_S100000x128_1_0_0_1_n_n.lhsNonContracting by decide)]
      rfl
    l1 := fun j c => Cert.ReferenceIdeal.dot_S100000x16_S16x128_S100000x128_1_0_0_1_n_n.lhsIdx_val_of_single rfl j c
    r0 := fun j c => Cert.ReferenceIdeal.dot_S100000x16_S16x128_S100000x128_1_0_0_1_n_n.rhsIdx_val_of_single rfl j c
    r1 := fun j c => by
      unfold DotDims.rhsIdx
      rw [dif_neg (show ¬(1 : Fin 2) ∈ Cert.ReferenceIdeal.dot_S100000x16_S16x128_S100000x128_1_0_0_1_n_n.rhsBatch by decide), dif_pos (show (1 : Fin 2) ∈ Cert.ReferenceIdeal.dot_S100000x16_S16x128_S100000x128_1_0_0_1_n_n.rhsNonContracting by decide)]
      rfl }

theorem host_100000x128x128 : Plain (M := 100000) (K := 128) (N := 128) Cert.ReferenceIdeal.dot_S100000x128_S128x128_S100000x128_1_0_0_1_n_n :=
  { rank := rfl
    size := rfl
    l0 := fun j c => by
      unfold DotDims.lhsIdx
      rw [dif_neg (show ¬(0 : Fin 2) ∈ Cert.ReferenceIdeal.dot_S100000x128_S128x128_S100000x128_1_0_0_1_n_n.lhsBatch by decide), dif_pos (show (0 : Fin 2) ∈ Cert.ReferenceIdeal.dot_S100000x128_S128x128_S100000x128_1_0_0_1_n_n.lhsNonContracting by decide)]
      rfl
    l1 := fun j c => Cert.ReferenceIdeal.dot_S100000x128_S128x128_S100000x128_1_0_0_1_n_n.lhsIdx_val_of_single rfl j c
    r0 := fun j c => Cert.ReferenceIdeal.dot_S100000x128_S128x128_S100000x128_1_0_0_1_n_n.rhsIdx_val_of_single rfl j c
    r1 := fun j c => by
      unfold DotDims.rhsIdx
      rw [dif_neg (show ¬(1 : Fin 2) ∈ Cert.ReferenceIdeal.dot_S100000x128_S128x128_S100000x128_1_0_0_1_n_n.rhsBatch by decide), dif_pos (show (1 : Fin 2) ∈ Cert.ReferenceIdeal.dot_S100000x128_S128x128_S100000x128_1_0_0_1_n_n.rhsNonContracting by decide)]
      rfl }

theorem host_2048x128x128 : Plain (M := 2048) (K := 128) (N := 128) Cert.ReferenceIdeal.dot_S2048x128_S128x128_S2048x128_1_0_0_1_n_n :=
  { rank := rfl
    size := rfl
    l0 := fun j c => by
      unfold DotDims.lhsIdx
      rw [dif_neg (show ¬(0 : Fin 2) ∈ Cert.ReferenceIdeal.dot_S2048x128_S128x128_S2048x128_1_0_0_1_n_n.lhsBatch by decide), dif_pos (show (0 : Fin 2) ∈ Cert.ReferenceIdeal.dot_S2048x128_S128x128_S2048x128_1_0_0_1_n_n.lhsNonContracting by decide)]
      rfl
    l1 := fun j c => Cert.ReferenceIdeal.dot_S2048x128_S128x128_S2048x128_1_0_0_1_n_n.lhsIdx_val_of_single rfl j c
    r0 := fun j c => Cert.ReferenceIdeal.dot_S2048x128_S128x128_S2048x128_1_0_0_1_n_n.rhsIdx_val_of_single rfl j c
    r1 := fun j c => by
      unfold DotDims.rhsIdx
      rw [dif_neg (show ¬(1 : Fin 2) ∈ Cert.ReferenceIdeal.dot_S2048x128_S128x128_S2048x128_1_0_0_1_n_n.rhsBatch by decide), dif_pos (show (1 : Fin 2) ∈ Cert.ReferenceIdeal.dot_S2048x128_S128x128_S2048x128_1_0_0_1_n_n.rhsNonContracting by decide)]
      rfl }

theorem host_2048x128x1 : Plain (M := 2048) (K := 128) (N := 1) Cert.ReferenceIdeal.dot_S2048x128_S128x1_S2048x1_1_0_0_1_n_n :=
  { rank := rfl
    size := rfl
    l0 := fun j c => by
      unfold DotDims.lhsIdx
      rw [dif_neg (show ¬(0 : Fin 2) ∈ Cert.ReferenceIdeal.dot_S2048x128_S128x1_S2048x1_1_0_0_1_n_n.lhsBatch by decide), dif_pos (show (0 : Fin 2) ∈ Cert.ReferenceIdeal.dot_S2048x128_S128x1_S2048x1_1_0_0_1_n_n.lhsNonContracting by decide)]
      rfl
    l1 := fun j c => Cert.ReferenceIdeal.dot_S2048x128_S128x1_S2048x1_1_0_0_1_n_n.lhsIdx_val_of_single rfl j c
    r0 := fun j c => Cert.ReferenceIdeal.dot_S2048x128_S128x1_S2048x1_1_0_0_1_n_n.rhsIdx_val_of_single rfl j c
    r1 := fun j c => by
      unfold DotDims.rhsIdx
      rw [dif_neg (show ¬(1 : Fin 2) ∈ Cert.ReferenceIdeal.dot_S2048x128_S128x1_S2048x1_1_0_0_1_n_n.rhsBatch by decide), dif_pos (show (1 : Fin 2) ∈ Cert.ReferenceIdeal.dot_S2048x128_S128x1_S2048x1_1_0_0_1_n_n.rhsNonContracting by decide)]
      rfl }

end Cert.Gnn.Dots

end
-- ==== Proof.LibRowVec.lean ====
/-
  A vector laid out as a matrix of one row.

  The vector unit reshapes a vector b : [N] to the one-row matrix [1, N]; the host writes the same matrix as a
  broadcast_in_dim of b along the second axis.  At the entry (u, j) both are b[j], whatever the unit coordinate u, so
  the two one-row matrices agree entry by entry.  Any extent N (for N = 1 the broadcast's unit-axis rule reads b[0], and
  j = 0 is the only column).
-/
import Idealize.ShloMosaic.Lib.ValueIdx
import Idealize.ShloMosaic.Lib.ValueLayout
import Idealize.ShloMosaic.Lib.Pipeline.Value

noncomputable section

namespace Cert.LibRowVec

open Idealize.ShloMosaic Idealize.ShloMosaic.ValueIdx

variable {α : Type} {N : Nat}

/-- The host's broadcast of a vector into a one-row matrix reads, at (u, j), the vector at j. -/
theorem bcastRow_apply (b : (⟨1, ![N]⟩ : Shape).Idx → α) (h : (⟨1, ![N]⟩ : Shape).BroadcastsInDim ⟨2, ![1, N]⟩ ![1])
    (u : Fin 1) (j : Fin N) : broadcastInDim ⟨2, ![1, N]⟩ ![1] h b (ix2 u j) = b (ix1 j) :=
  broadcastInDim_apply ![1] h b (ix2 u j) (ix1 j) (fun a => by
    match a with
    | ⟨0, _⟩ =>
      show j.val = if N = 1 then 0 else j.val
      split
      · have := j.isLt; omega
      · rfl)

/-- Every index of a rank-2 shape is a pair of coordinates. -/
theorem exists_ix2 {A B : Nat} (i : (⟨2, ![A, B]⟩ : Shape).Idx) : ∃ (p : Fin A) (q : Fin B), i = ix2 p q :=
  ⟨i 0, i 1, eq_ix2 i⟩

/-- The reshaped vector and the broadcast vector are the same one-row matrix. -/
theorem castRow_eq_bcastRow (b : (⟨1, ![N]⟩ : Shape).Idx → α) (hc : (⟨1, ![N]⟩ : Shape).ShapeCasts ⟨2, ![1, N]⟩)
    (hb : (⟨1, ![N]⟩ : Shape).BroadcastsInDim ⟨2, ![1, N]⟩ ![1]) (i : (⟨2, ![1, N]⟩ : Shape).Idx) :
    shapeCast ⟨2, ![1, N]⟩ b hc i = broadcastInDim ⟨2, ![1, N]⟩ ![1] hb b i := by
  obtain ⟨u, j, rfl⟩ := exists_ix2 i
  rw [shapeCast_a_1a_apply b hc u j, bcastRow_apply b hb u j]

end Cert.LibRowVec

end
-- ==== Proof.Region0.lean ====
/-
  Region 0 of the kernel's program: the edge embedding, edge_attr · W_edge, over the 1600000 edges in 200 blocks of 8000 rows.

  At grid point t the body loads rows 8000·t … 8000·t + 7999 of the edge attributes (all 8 columns) and the whole 8 × 128
  weight matrix, multiplies on the vector unit into a zero accumulator and stores the 8000 × 128 product, which is written
  back to the same rows of the output array.  Row p of the block is row 8000·t + p of the host's dot_general of the whole
  arrays: both are Σ_k e[r,k] · W[k,q] at r = 8000·t + p.  The 200 blocks tile the array (row r lies in block r / 8000).
-/
import proofs.«145433_j32727650796179_1_alg».proof.Proof.Gen.KernelIdeal.Frame
import proofs.«145433_j32727650796179_1_alg».proof.Proof.Dots
import proofs.«145433_j32727650796179_1_alg».proof.Proof.LibRowVec

set_option maxRecDepth 16384

noncomputable section

namespace Cert.Gnn.Region0

open Idealize.ShloMosaic Idealize.ShloMosaic.TcCoe Idealize.ShloMosaic.ValueIdx Idealize.SL.Sem
open Idealize.ShloMosaic.Pipeline (Dat)
open Cert.KernelIdeal Cert.KernelIdeal.Gen Cert.LibRowRel

/-- What the host computes from the whole arrays: the product of the edge attributes with the edge weights. -/
def edges (e : FVec Ideal S1600000x8 .f32) (w : FVec Ideal S8x128 .f32) : FVec Ideal S1600000x128 .f32 :=
  Host.dotGeneral Cert.ReferenceIdeal.dot_S1600000x8_S8x128_S1600000x128_1_0_0_1_n_n none e w

theorem zero2 : (![0, 0] : Fin 2 → Nat) = fun _ => 0 := funext fun a => by fin_cases a <;> rfl

/-- The printed index maps over the 200 grid points: the row-block windows sit at block (t, 0), the weights at block 0. -/
theorem blockIndex : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array row that row p of block t is. -/
def rowOf (t : Fin cfg0.N) (p : Fin 8000) : Fin 1600000 :=
  ⟨t.val * 8000 + p.val, by have hN : cfg0.N = 200 := N_0; have := t.isLt; have := p.isLt; omega⟩

theorem embIn (t : Fin cfg0.N) (y : S8000x8.Idx) : ((cfg0.win 0).blk t).view.emb y = ix2 (rowOf t (y 0)) (y 1) := by
  obtain ⟨e0, e1, -⟩ := blockIndex t
  funext a; apply Fin.ext
  match a with
  | ⟨0, _⟩ => show win0_0.index t (0 : Fin 2) * 8000 + 1 * (y 0).val = t.val * 8000 + (y 0).val; rw [e0]; omega
  | ⟨1, _⟩ => show win0_0.index t (1 : Fin 2) * 8 + 1 * (y 1).val = (y 1).val; rw [e1]; omega

theorem embOut (t : Fin cfg0.N) (y : S8000x128.Idx) : ((cfg0.win 2).blk t).view.emb y = ix2 (rowOf t (y 0)) (y 1) := by
  obtain ⟨-, -, -, -, e4, e5⟩ := blockIndex t
  funext a; apply Fin.ext
  match a with
  | ⟨0, _⟩ => show win0_2.index t (0 : Fin 2) * 8000 + 1 * (y 0).val = t.val * 8000 + (y 0).val; rw [e4]; omega
  | ⟨1, _⟩ => show win0_2.index t (1 : Fin 2) * 128 + 1 * (y 1).val = (y 1).val; rw [e5]; omega

theorem embW (t : Fin cfg0.N) (y : S8x128.Idx) : ((cfg0.win 1).blk t).view.emb y = y := by
  obtain ⟨-, -, e2, e3, -⟩ := blockIndex t
  funext a; apply Fin.ext
  match a with
  | ⟨0, _⟩ => show win0_1.index t (0 : Fin 2) * 8 + 1 * (y 0).val = (y 0).val; rw [e2]; omega
  | ⟨1, _⟩ => show win0_1.index t (1 : Fin 2) * 128 + 1 * (y 1).val = (y 1).val; rw [e3]; omega

/-- The body's product keeps rows related. -/
theorem payload_rows {ρ : Fin 8000 → Fin 1600000} (x0 : FVec Ideal S8000x8 .f32) (w : FVec Ideal S8x128 .f32)
    (e : FVec Ideal S1600000x8 .f32) (hx : Rel ρ x0 e) : Rel ρ (k0_pay1 (F := Ideal) x0 w) (edges e w) := by
  unfold k0_pay1 edges
  exact Rel.matmul Dots.kernel_8000x8x128 Dots.host_1600000x8x128 (Rel.truncf_left _ hx) (fun _ => rfl) none none

variable (V : (c : Dev nD) → (b : Ref sig .tc) → Buf (Elt Ideal) ((c : Thread nD τ).loc b))

/-- What point t writes back is block t of the host's product of the arrays the region found. -/
theorem flushed_eq (c : Dev nD) (t : Fin cfg0.N) :
    (dat0 V c).flushed 2 t = ((cfg0.win 2).blk t).view.read (Elt Ideal) (edges (V c main_arg1) (V c main_arg7)) := by
  show (cfg0.win 2).cut (grid0.coords t) ((dat0 V c).after 2 t) = _
  rw [after0_2]
  unfold out0_2
  rw [View.canon_unit_zero zero2]
  simp only [View.ld_unit_zero (S := S8000x8) zero2, View.ld_unit_zero (S := S8x128) zero2]
  have hw : (iblk0 V c 1 t : FVec Ideal S8x128 .f32) = V c main_arg7 := by
    funext y; show V c main_arg7 (((cfg0.win 1).blk t).view.emb y) = V c main_arg7 y; rw [embW]
  have hx : Rel (rowOf t) (φ := .f32) (iblk0 V c 0 t : FVec Ideal S8000x8 .f32) (V c main_arg1) := fun p j => by
    show V c main_arg1 (((cfg0.win 0).blk t).view.emb (ix2 p j)) = V c main_arg1 (ix2 (rowOf t p) j)
    rw [embIn]; rfl
  funext y
  show k0_pay1 (F := Ideal) (iblk0 V c 0 t) (iblk0 V c 1 t) y = edges (V c main_arg1) (V c main_arg7) (((cfg0.win 2).blk t).view.emb y)
  rw [embOut, hw, eq_ix2 y]
  exact payload_rows _ _ _ hx (y 0) (y 1)

theorem mem_block (t : Fin cfg0.N) (i : S1600000x128.Idx) :
    i ∈ ((cfg0.win 2).blk t).view.set ↔ ∀ a : Fin 2, win0_2.index t a * S8000x128.size a ≤ (i a).val ∧ (i a).val < win0_2.index t a * S8000x128.size a + S8000x128.size a := by
  show i ∈ ((View.whole main_v0).slice (win0_2.rect t)).set ↔ _
  rw [View.set_slice_whole, Rect.mem_set_unit]
  exact Iff.rfl

/-- The 200 blocks tile the output array: row r lies in block r / 8000. -/
theorem covered (i : S1600000x128.Idx) : ∃ t : Fin cfg0.N, (cfg0.win 2).flush t = true ∧ i ∈ ((cfg0.win 2).blk t).view.set := by
  have hN : grid0.N = 200 := N_0
  have hi0 : (i 0).val < 1600000 := (i 0).isLt
  have hi1 : (i 1).val < 128 := (i 1).isLt
  have ht : (i 0).val / 8000 < cfg0.N := by show (i 0).val / 8000 < grid0.N; omega
  obtain ⟨-, -, -, -, e4, e5⟩ := blockIndex ⟨(i 0).val / 8000, ht⟩
  refine ⟨⟨(i 0).val / 8000, ht⟩, flush0_2 _, ?_⟩
  rw [mem_block]
  intro a
  match a with
  | ⟨0, _⟩ =>
    show win0_2.index ⟨(i 0).val / 8000, ht⟩ (0 : Fin 2) * 8000 ≤ (i 0).val ∧ (i 0).val < win0_2.index ⟨(i 0).val / 8000, ht⟩ (0 : Fin 2) * 8000 + 8000
    rw [e4]; show (i 0).val / 8000 * 8000 ≤ (i 0).val ∧ (i 0).val < (i 0).val / 8000 * 8000 + 8000; omega
  | ⟨1, _⟩ =>
    show win0_2.index ⟨(i 0).val / 8000, ht⟩ (1 : Fin 2) * 128 ≤ (i 1).val ∧ (i 1).val < win0_2.index ⟨(i 0).val / 8000, ht⟩ (1 : Fin 2) * 128 + 128
    rw [e5]; omega

/-- After the region its output array is the host's product of the arrays the region found. -/
theorem final (c : Dev nD) : (dat0 V c).arrAt 2 cfg0.N = edges (V c main_arg1) (V c main_arg7) :=
  (dat0 V c).arrAt_eq_of_cover 2 _ (fun t _ => flushed_eq V c t) covered

end Cert.Gnn.Region0

end
-- ==== Proof.Region1.lean ====
/-
  Region 1 of the kernel's program: the node embedding, relu(node_attr · W_node + agg + b), over the 100000 nodes in 20
  blocks of 5000 rows (agg is the array of edge embeddings summed per destination node, which a host scatter wrote).

  At grid point t the body loads rows 5000·t … 5000·t + 4999 of the node attributes (16 columns) and of agg (128 columns),
  the whole 16 × 128 weight matrix and the whole bias vector; it multiplies into a zero accumulator, adds the agg rows,
  adds the bias to every row, clamps at zero from below and stores the 5000 × 128 block, written back to the same rows of
  the output array.  Row p of the block is row r = 5000·t + p of the host's
  max((dot_general(node_attr, W) + agg) + broadcast(b), 0): the same sum, the same two additions in the same grouping, the
  same maximum.  The 20 blocks tile the array (row r lies in block r / 5000).
-/
import proofs.«145433_j32727650796179_1_alg».proof.Proof.Gen.KernelIdeal.Frame
import proofs.«145433_j32727650796179_1_alg».proof.Proof.Dots
import proofs.«145433_j32727650796179_1_alg».proof.Proof.LibRowVec

set_option maxRecDepth 16384

noncomputable section

namespace Cert.Gnn.Region1

open Idealize.ShloMosaic Idealize.ShloMosaic.TcCoe Idealize.ShloMosaic.ValueIdx Idealize.SL.Sem
open Idealize.ShloMosaic.Pipeline (Dat)
open Cert.KernelIdeal Cert.KernelIdeal.Gen Cert.LibRowRel

/-- What the host computes from the whole arrays. -/
def embed (n : FVec Ideal S100000x16 .f32) (agg : FVec Ideal S100000x128 .f32) (w : FVec Ideal S16x128 .f32) (b : FVec Ideal S128 .f32) :
    FVec Ideal S100000x128 .f32 :=
  maximumf
    (addf (addf (Host.dotGeneral Cert.ReferenceIdeal.dot_S100000x16_S16x128_S100000x128_1_0_0_1_n_n none n w) agg)
      (broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b)))
    (broadcastInDim Cert.ReferenceIdeal.S100000x128 ![] Cert.ReferenceIdeal.Gen.bcast_S_S100000x128 (constant Cert.ReferenceIdeal.S_ .f32 0x00000000#32))

theorem zero2 : (![0, 0] : Fin 2 → Nat) = fun _ => 0 := funext fun a => by fin_cases a <;> rfl
theorem zero1 : (![0] : Fin 1 → Nat) = fun _ => 0 := funext fun a => by fin_cases a; rfl

/-- The printed index maps over the 20 grid points: the three row-block windows sit at block (t, 0), the weights and the bias at block 0. -/
theorem blockIndex : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- The array row that row p of block t is. -/
def rowOf (t : Fin cfg1.N) (p : Fin 5000) : Fin 100000 :=
  ⟨t.val * 5000 + p.val, by have hN : cfg1.N = 20 := N_1; have := t.isLt; have := p.isLt; omega⟩

theorem embNode (t : Fin cfg1.N) (y : S5000x16.Idx) : ((cfg1.win 0).blk t).view.emb y = ix2 (rowOf t (y 0)) (y 1) := by
  obtain ⟨e0, e1, -⟩ := blockIndex t
  funext a; apply Fin.ext
  match a with
  | ⟨0, _⟩ => show win1_0.index t (0 : Fin 2) * 5000 + 1 * (y 0).val = t.val * 5000 + (y 0).val; rw [e0]; omega
  | ⟨1, _⟩ => show win1_0.index t (1 : Fin 2) * 16 + 1 * (y 1).val = (y 1).val; rw [e1]; omega

theorem embAgg (t : Fin cfg1.N) (y : S5000x128.Idx) : ((cfg1.win 1).blk t).view.emb y = ix2 (rowOf t (y 0)) (y 1) := by
  obtain ⟨-, -, e2, e3, -⟩ := blockIndex t
  funext a; apply Fin.ext
  match a with
  | ⟨0, _⟩ => show win1_1.index t (0 : Fin 2) * 5000 + 1 * (y 0).val = t.val * 5000 + (y 0).val; rw [e2]; omega
  | ⟨1, _⟩ => show win1_1.index t (1 : Fin 2) * 128 + 1 * (y 1).val = (y 1).val; rw [e3]; omega

theorem embW (t : Fin cfg1.N) (y : S16x128.Idx) : ((cfg1.win 2).blk t).view.emb y = y := by
  obtain ⟨-, -, -, -, e4, e5, -⟩ := blockIndex t
  funext a; apply Fin.ext
  match a with
  | ⟨0, _⟩ => show win1_2.index t (0 : Fin 2) * 16 + 1 * (y 0).val = (y 0).val; rw [e4]; omega
  | ⟨1, _⟩ => show win1_2.index t (1 : Fin 2) * 128 + 1 * (y 1).val = (y 1).val; rw [e5]; omega

theorem embB (t : Fin cfg1.N) (y : S128.Idx) : ((cfg1.win 3).blk t).view.emb y = y := by
  obtain ⟨-, -, -, -, -, -, e6, -⟩ := blockIndex t
  funext a; apply Fin.ext
  match a with
  | ⟨0, _⟩ => show win1_3.index t (0 : Fin 1) * 128 + 1 * (y 0).val = (y 0).val; rw [e6]; omega

theorem embOut (t : Fin cfg1.N) (y : S5000x128.Idx) : ((cfg1.win 4).blk t).view.emb y = ix2 (rowOf t (y 0)) (y 1) := by
  obtain ⟨-, -, -, -, -, -, -, e7, e8⟩ := blockIndex t
  funext a; apply Fin.ext
  match a with
  | ⟨0, _⟩ => show win1_4.index t (0 : Fin 2) * 5000 + 1 * (y 0).val = t.val * 5000 + (y 0).val; rw [e7]; omega
  | ⟨1, _⟩ => show win1_4.index t (1 : Fin 2) * 128 + 1 * (y 1).val = (y 1).val; rw [e8]; omega

/-- The body's arithmetic keeps rows related. -/
theorem payload_rows {ρ : Fin 5000 → Fin 100000} (x0 : FVec Ideal S5000x16 .f32) (w : FVec Ideal S16x128 .f32)
    (xa : FVec Ideal S5000x128 .f32) (b : FVec Ideal S128 .f32)
    (n : FVec Ideal S100000x16 .f32) (agg : FVec Ideal S100000x128 .f32) (hx : Rel ρ x0 n) (ha : Rel ρ xa agg) :
    Rel ρ (k1_pay1 (F := Ideal) x0 w xa b) (embed n agg w b) := by
  unfold k1_pay1 embed
  have hcast : Rel ρ (shapeCast S5000x128 xa shapeCasts_S5000x128_S5000x128) agg := by rw [shapeCast_self]; exact ha
  exact Rel.maximumf
    (Rel.addf
      (Rel.addf (Rel.matmul Dots.kernel_5000x16x128 Dots.host_100000x16x128 (Rel.truncf_left _ hx) (fun _ => rfl) none none) hcast)
      (Rel.biasRow (fun i => Cert.LibRowVec.castRow_eq_bcastRow b _ _ i) _ _))
    (Rel.splat _ _)

variable (V : (c : Dev nD) → (b : Ref sig .tc) → Buf (Elt Ideal) ((c : Thread nD τ).loc b))

/-- What point t writes back is block t of the host's embedding of the arrays the region found. -/
theorem flushed_eq (c : Dev nD) (t : Fin cfg1.N) :
    (dat1 V c).flushed 4 t
      = ((cfg1.win 4).blk t).view.read (Elt Ideal) (embed (V c main_arg0) (V c main_v5) (V c main_arg6) (V c main_arg8)) := by
  show (cfg1.win 4).cut (grid1.coords t) ((dat1 V c).after 4 t) = _
  rw [after1_4]
  unfold out1_4
  rw [View.canon_unit_zero zero2]
  simp only [View.ld_unit_zero (S := S5000x16) zero2, View.ld_unit_zero (S := S5000x128) zero2, View.ld_unit_zero (S := S16x128) zero2,
    View.ld_unit_zero (S := S128) zero1]
  have hw : (iblk1 V c 2 t : FVec Ideal S16x128 .f32) = V c main_arg6 := by
    funext y; show V c main_arg6 (((cfg1.win 2).blk t).view.emb y) = V c main_arg6 y; rw [embW]
  have hb : (iblk1 V c 3 t : FVec Ideal S128 .f32) = V c main_arg8 := by
    funext y; show V c main_arg8 (((cfg1.win 3).blk t).view.emb y) = V c main_arg8 y; rw [embB]
  have hx : Rel (rowOf t) (φ := .f32) (iblk1 V c 0 t : FVec Ideal S5000x16 .f32) (V c main_arg0) := fun p j => by
    show V c main_arg0 (((cfg1.win 0).blk t).view.emb (ix2 p j)) = V c main_arg0 (ix2 (rowOf t p) j)
    rw [embNode]; rfl
  have ha : Rel (rowOf t) (φ := .f32) (iblk1 V c 1 t : FVec Ideal S5000x128 .f32) (V c main_v5) := fun p j => by
    show V c main_v5 (((cfg1.win 1).blk t).view.emb (ix2 p j)) = V c main_v5 (ix2 (rowOf t p) j)
    rw [embAgg]; rfl
  funext y
  show k1_pay1 (F := Ideal) (iblk1 V c 0 t) (iblk1 V c 2 t) (iblk1 V c 1 t) (iblk1 V c 3 t) y
    = embed (V c main_arg0) (V c main_v5) (V c main_arg6) (V c main_arg8) (((cfg1.win 4).blk t).view.emb y)
  rw [embOut, hw, hb, eq_ix2 y]
  exact payload_rows _ _ _ _ _ _ hx ha (y 0) (y 1)

theorem mem_block (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v6).slice (win1_4.rect t)).set ↔ _
  rw [View.set_slice_whole, Rect.mem_set_unit]
  exact Iff.rfl

/-- The 20 blocks tile the output array: row r lies in block r / 5000. -/
theorem covered (i : S100000x128.Idx) : ∃ t : Fin cfg1.N, (cfg1.win 4).flush t = true ∧ i ∈ ((cfg1.win 4).blk t).view.set := by
  have hN : grid1.N = 20 := N_1
  have hi0 : (i 0).val < 100000 := (i 0).isLt
  have hi1 : (i 1).val < 128 := (i 1).isLt
  have ht : (i 0).val / 5000 < cfg1.N := by show (i 0).val / 5000 < grid1.N; omega
  obtain ⟨-, -, -, -, -, -, -, e7, e8⟩ := blockIndex ⟨(i 0).val / 5000, ht⟩
  refine ⟨⟨(i 0).val / 5000, ht⟩, flush1_4 _, ?_⟩
  rw [mem_block]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e7]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e8]; omega

/-- After the region its output array is the host's embedding of the arrays the region found. -/
theorem final (c : Dev nD) :
    (dat1 V c).arrAt 4 cfg1.N = embed (V c main_arg0) (V c main_v5) (V c main_arg6) (V c main_arg8) :=
  (dat1 V c).arrAt_eq_of_cover 4 _ (fun t _ => flushed_eq V c t) covered

end Cert.Gnn.Region1

end
-- ==== Proof.Region2.lean ====
/-
  Region 2 of the kernel's program: one affine layer, h · W + b, over the 100000 nodes in 20 blocks of 5000 rows.

  At grid point t the body loads rows 5000·t … 5000·t + 4999 of h (all 128 columns), the whole 128 × 128 weight matrix and
  the whole bias vector, multiplies on the vector unit into a zero accumulator, adds the bias to every row, and stores the
  5000 × 128 result, which is written back to the same rows of the output array.  Row p of the block is therefore row
  5000·t + p of the host's  dot_general(h, W) + broadcast(b):  both are  Σ_k h[r,k] · W[k,q] + b[q]  at r = 5000·t + p.
  The 20 blocks tile the array (row r lies in block r / 5000), so after the region the output array is that host term of
  the arrays the region found, whatever they are.
-/
import proofs.«145433_j32727650796179_1_alg».proof.Proof.Gen.KernelIdeal.Frame
import proofs.«145433_j32727650796179_1_alg».proof.Proof.Dots
import proofs.«145433_j32727650796179_1_alg».proof.Proof.LibRowVec

set_option maxRecDepth 16384

noncomputable section

namespace Cert.Gnn.Region2

open Idealize.ShloMosaic Idealize.ShloMosaic.TcCoe Idealize.ShloMosaic.ValueIdx Idealize.SL.Sem
open Idealize.ShloMosaic.Pipeline (Dat)
open Cert.KernelIdeal Cert.KernelIdeal.Gen Cert.LibRowRel

/-- What the host computes for this layer from the whole arrays: h · W + b, the bias broadcast over the rows. -/
def layer (h : FVec Ideal S100000x128 .f32) (w : FVec Ideal S128x128 .f32) (b : FVec Ideal S128 .f32) : FVec Ideal S100000x128 .f32 :=
  addf (Host.dotGeneral Cert.ReferenceIdeal.dot_S100000x128_S128x128_S100000x128_1_0_0_1_n_n none
      h w)
    (broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b))

theorem zero2 : (![0, 0] : Fin 2 → Nat) = fun _ => 0 := funext fun a => by fin_cases a <;> rfl
theorem zero1 : (![0] : Fin 1 → Nat) = fun _ => 0 := funext fun a => by fin_cases a; rfl

/-- The printed index maps over the 20 grid points: the row-block windows sit at block (t, 0), the weights and the bias at block 0. -/
theorem blockIndex : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The array row that row p of block t is. -/
def rowOf (t : Fin cfg2.N) (p : Fin 5000) : Fin 100000 :=
  ⟨t.val * 5000 + p.val, by have hN : cfg2.N = 20 := N_2; have := t.isLt; have := p.isLt; omega⟩

/-- Where the input block's entry (p, k) sits in the node array. -/
theorem embIn (t : Fin cfg2.N) (y : S5000x128.Idx) : ((cfg2.win 0).blk t).view.emb y = ix2 (rowOf t (y 0)) (y 1) := by
  obtain ⟨e0, e1, -⟩ := blockIndex t
  funext a; apply Fin.ext
  match a with
  | ⟨0, _⟩ => show win2_0.index t (0 : Fin 2) * 5000 + 1 * (y 0).val = t.val * 5000 + (y 0).val; rw [e0]; omega
  | ⟨1, _⟩ => show win2_0.index t (1 : Fin 2) * 128 + 1 * (y 1).val = (y 1).val; rw [e1]; omega

/-- Where the output block's entry (p, q) sits in the output array. -/
theorem embOut (t : Fin cfg2.N) (y : S5000x128.Idx) : ((cfg2.win 3).blk t).view.emb y = ix2 (rowOf t (y 0)) (y 1) := by
  obtain ⟨-, -, -, -, -, e5, e6⟩ := blockIndex t
  funext a; apply Fin.ext
  match a with
  | ⟨0, _⟩ => show win2_3.index t (0 : Fin 2) * 5000 + 1 * (y 0).val = t.val * 5000 + (y 0).val; rw [e5]; omega
  | ⟨1, _⟩ => show win2_3.index t (1 : Fin 2) * 128 + 1 * (y 1).val = (y 1).val; rw [e6]; omega

/-- The weight window's one block is the whole matrix. -/
theorem embW (t : Fin cfg2.N) (y : S128x128.Idx) : ((cfg2.win 1).blk t).view.emb y = y := by
  obtain ⟨-, -, e2, e3, -⟩ := blockIndex t
  funext a; apply Fin.ext
  match a with
  | ⟨0, _⟩ => show win2_1.index t (0 : Fin 2) * 128 + 1 * (y 0).val = (y 0).val; rw [e2]; omega
  | ⟨1, _⟩ => show win2_1.index t (1 : Fin 2) * 128 + 1 * (y 1).val = (y 1).val; rw [e3]; omega

/-- The bias window's one block is the whole vector. -/
theorem embB (t : Fin cfg2.N) (y : S128.Idx) : ((cfg2.win 2).blk t).view.emb y = y := by
  obtain ⟨-, -, -, -, e4, -⟩ := blockIndex t
  funext a; apply Fin.ext
  match a with
  | ⟨0, _⟩ => show win2_2.index t (0 : Fin 1) * 128 + 1 * (y 0).val = (y 0).val; rw [e4]; omega

/-- The body's arithmetic keeps rows related: if row p of the loaded block is row ρ p of h, then row p of what the body
    stores is row ρ p of the host's layer of h, with the same weights and bias. -/
theorem payload_rows {ρ : Fin 5000 → Fin 100000} (x0 : FVec Ideal S5000x128 .f32) (w : FVec Ideal S128x128 .f32) (b : FVec Ideal S128 .f32)
    (h : FVec Ideal S100000x128 .f32) (hx : Rel ρ x0 h) : Rel ρ (k2_pay1 (F := Ideal) x0 w b) (layer h w b) := by
  unfold k2_pay1 layer
  have hcast : Rel ρ (shapeCast S5000x128 x0 shapeCasts_S5000x128_S5000x128) h := by rw [shapeCast_self]; exact hx
  exact Rel.addf
    (Rel.matmul Dots.kernel_5000x128x128 Dots.host_100000x128x128
      (Rel.truncf_left _ hcast) (fun _ => rfl) none none)
    (Rel.biasRow (fun i => Cert.LibRowVec.castRow_eq_bcastRow b _ _ i) _ _)

variable (V : (c : Dev nD) → (b : Ref sig .tc) → Buf (Elt Ideal) ((c : Thread nD τ).loc b))

/-- What point t writes back is block t of the host's layer of the arrays the region found. -/
theorem flushed_eq (c : Dev nD) (t : Fin cfg2.N) :
    (dat2 V c).flushed 3 t
      = ((cfg2.win 3).blk t).view.read (Elt Ideal) (layer (V c main_v6) (V c main_arg9) (V c main_arg10)) := by
  show (cfg2.win 3).cut (grid2.coords t) ((dat2 V c).after 3 t) = _
  rw [after2_3]
  unfold out2_3
  rw [View.canon_unit_zero zero2]
  simp only [View.ld_unit_zero (S := S5000x128) zero2, View.ld_unit_zero (S := S128x128) zero2, View.ld_unit_zero (S := S128) zero1]
  have hw : (iblk2 V c 1 t : FVec Ideal S128x128 .f32) = V c main_arg9 := by
    funext y; show V c main_arg9 (((cfg2.win 1).blk t).view.emb y) = V c main_arg9 y; rw [embW]
  have hb : (iblk2 V c 2 t : FVec Ideal S128 .f32) = V c main_arg10 := by
    funext y; show V c main_arg10 (((cfg2.win 2).blk t).view.emb y) = V c main_arg10 y; rw [embB]
  have hx : Rel (rowOf t) (φ := .f32) (iblk2 V c 0 t : FVec Ideal S5000x128 .f32) (V c main_v6) := fun p j => by
    show V c main_v6 (((cfg2.win 0).blk t).view.emb (ix2 p j)) = V c main_v6 (ix2 (rowOf t p) j)
    rw [embIn]; rfl
  funext y
  show k2_pay1 (F := Ideal) (iblk2 V c 0 t) (iblk2 V c 1 t) (iblk2 V c 2 t) y
    = layer (V c main_v6) (V c main_arg9) (V c main_arg10) (((cfg2.win 3).blk t).view.emb y)
  rw [embOut, hw, hb, eq_ix2 y]
  exact payload_rows _ _ _ _ hx (y 0) (y 1)

/-- An index of the output array lies in point t's block iff each coordinate lies in the block's range on its axis. -/
theorem mem_block (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v11).slice (win2_3.rect t)).set ↔ _
  rw [View.set_slice_whole, Rect.mem_set_unit]
  exact Iff.rfl

/-- The 20 blocks tile the output array: row r lies in block r / 5000. -/
theorem covered (i : S100000x128.Idx) : ∃ t : Fin cfg2.N, (cfg2.win 3).flush t = true ∧ i ∈ ((cfg2.win 3).blk t).view.set := by
  have hN : grid2.N = 20 := N_2
  have hi0 : (i 0).val < 100000 := (i 0).isLt
  have hi1 : (i 1).val < 128 := (i 1).isLt
  have ht : (i 0).val / 5000 < cfg2.N := by show (i 0).val / 5000 < grid2.N; omega
  obtain ⟨-, -, -, -, -, e5, e6⟩ := blockIndex ⟨(i 0).val / 5000, ht⟩
  refine ⟨⟨(i 0).val / 5000, ht⟩, flush2_3 _, ?_⟩
  rw [mem_block]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win2_3.index ⟨(i 0).val / 5000, ht⟩ (1 : Fin 2) * 128 ≤ (i 1).val ∧ (i 1).val < win2_3.index ⟨(i 0).val / 5000, ht⟩ (1 : Fin 2) * 128 + 128
    rw [e6]; omega

/-- After the region its output array is the host's layer of the arrays the region found. -/
theorem final (c : Dev nD) :
    (dat2 V c).arrAt 3 cfg2.N = layer (V c main_v6) (V c main_arg9) (V c main_arg10) :=
  (dat2 V c).arrAt_eq_of_cover 3 _ (fun t _ => flushed_eq V c t) covered

end Cert.Gnn.Region2

end
-- ==== Proof.Region3.lean ====
/-
  Region 3 of the kernel's program: one affine layer, relu(h) · W + b, over the 100000 nodes in 20 blocks of 5000 rows.

  At grid point t the body loads rows 5000·t … 5000·t + 4999 of h (all 128 columns), the whole 128 × 128 weight matrix and
  the whole bias vector, clamps the rows at zero from below, multiplies on the vector unit into a zero accumulator, adds the bias to every row, and stores the
  5000 × 128 result, which is written back to the same rows of the output array.  Row p of the block is therefore row
  5000·t + p of the host's  dot_general(max(h, 0), W) + broadcast(b):  both are  Σ_k max(h[r,k], 0) · W[k,q] + b[q]  at r = 5000·t + p.
  The 20 blocks tile the array (row r lies in block r / 5000), so after the region the output array is that host term of
  the arrays the region found, whatever they are.
-/
import proofs.«145433_j32727650796179_1_alg».proof.Proof.Gen.KernelIdeal.Frame
import proofs.«145433_j32727650796179_1_alg».proof.Proof.Dots
import proofs.«145433_j32727650796179_1_alg».proof.Proof.LibRowVec

set_option maxRecDepth 16384

noncomputable section

namespace Cert.Gnn.Region3

open Idealize.ShloMosaic Idealize.ShloMosaic.TcCoe Idealize.ShloMosaic.ValueIdx Idealize.SL.Sem
open Idealize.ShloMosaic.Pipeline (Dat)
open Cert.KernelIdeal Cert.KernelIdeal.Gen Cert.LibRowRel

/-- What the host computes for this layer from the whole arrays: max(h, 0) · W + b, the bias broadcast over the rows. -/
def layer (h : FVec Ideal S100000x128 .f32) (w : FVec Ideal S128x128 .f32) (b : FVec Ideal S128 .f32) : FVec Ideal S100000x128 .f32 :=
  addf (Host.dotGeneral Cert.ReferenceIdeal.dot_S100000x128_S128x128_S100000x128_1_0_0_1_n_n none
      (maximumf h (broadcastInDim Cert.ReferenceIdeal.S100000x128 ![] Cert.ReferenceIdeal.Gen.bcast_S_S100000x128 (constant Cert.ReferenceIdeal.S_ .f32 0x00000000#32))) w)
    (broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b))

theorem zero2 : (![0, 0] : Fin 2 → Nat) = fun _ => 0 := funext fun a => by fin_cases a <;> rfl
theorem zero1 : (![0] : Fin 1 → Nat) = fun _ => 0 := funext fun a => by fin_cases a; rfl

/-- The printed index maps over the 20 grid points: the row-block windows sit at block (t, 0), the weights and the bias at block 0. -/
theorem blockIndex : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- The array row that row p of block t is. -/
def rowOf (t : Fin cfg3.N) (p : Fin 5000) : Fin 100000 :=
  ⟨t.val * 5000 + p.val, by have hN : cfg3.N = 20 := N_3; have := t.isLt; have := p.isLt; omega⟩

/-- Where the input block's entry (p, k) sits in the node array. -/
theorem embIn (t : Fin cfg3.N) (y : S5000x128.Idx) : ((cfg3.win 0).blk t).view.emb y = ix2 (rowOf t (y 0)) (y 1) := by
  obtain ⟨e0, e1, -⟩ := blockIndex t
  funext a; apply Fin.ext
  match a with
  | ⟨0, _⟩ => show win3_0.index t (0 : Fin 2) * 5000 + 1 * (y 0).val = t.val * 5000 + (y 0).val; rw [e0]; omega
  | ⟨1, _⟩ => show win3_0.index t (1 : Fin 2) * 128 + 1 * (y 1).val = (y 1).val; rw [e1]; omega

/-- Where the output block's entry (p, q) sits in the output array. -/
theorem embOut (t : Fin cfg3.N) (y : S5000x128.Idx) : ((cfg3.win 3).blk t).view.emb y = ix2 (rowOf t (y 0)) (y 1) := by
  obtain ⟨-, -, -, -, -, e5, e6⟩ := blockIndex t
  funext a; apply Fin.ext
  match a with
  | ⟨0, _⟩ => show win3_3.index t (0 : Fin 2) * 5000 + 1 * (y 0).val = t.val * 5000 + (y 0).val; rw [e5]; omega
  | ⟨1, _⟩ => show win3_3.index t (1 : Fin 2) * 128 + 1 * (y 1).val = (y 1).val; rw [e6]; omega

/-- The weight window's one block is the whole matrix. -/
theorem embW (t : Fin cfg3.N) (y : S128x128.Idx) : ((cfg3.win 1).blk t).view.emb y = y := by
  obtain ⟨-, -, e2, e3, -⟩ := blockIndex t
  funext a; apply Fin.ext
  match a with
  | ⟨0, _⟩ => show win3_1.index t (0 : Fin 2) * 128 + 1 * (y 0).val = (y 0).val; rw [e2]; omega
  | ⟨1, _⟩ => show win3_1.index t (1 : Fin 2) * 128 + 1 * (y 1).val = (y 1).val; rw [e3]; omega

/-- The bias window's one block is the whole vector. -/
theorem embB (t : Fin cfg3.N) (y : S128.Idx) : ((cfg3.win 2).blk t).view.emb y = y := by
  obtain ⟨-, -, -, -, e4, -⟩ := blockIndex t
  funext a; apply Fin.ext
  match a with
  | ⟨0, _⟩ => show win3_2.index t (0 : Fin 1) * 128 + 1 * (y 0).val = (y 0).val; rw [e4]; omega

/-- The body's arithmetic keeps rows related: if row p of the loaded block is row ρ p of h, then row p of what the body
    stores is row ρ p of the host's layer of h, with the same weights and bias. -/
theorem payload_rows {ρ : Fin 5000 → Fin 100000} (x0 : FVec Ideal S5000x128 .f32) (w : FVec Ideal S128x128 .f32) (b : FVec Ideal S128 .f32)
    (h : FVec Ideal S100000x128 .f32) (hx : Rel ρ x0 h) : Rel ρ (k3_pay1 (F := Ideal) x0 w b) (layer h w b) := by
  unfold k3_pay1 layer
  have hcast : Rel ρ (shapeCast S5000x128 x0 shapeCasts_S5000x128_S5000x128) h := by rw [shapeCast_self]; exact hx
  exact Rel.addf
    (Rel.matmul Dots.kernel_5000x128x128 Dots.host_100000x128x128
      (Rel.truncf_left _ (Rel.maximumf hcast (Rel.splat _ _))) (fun _ => rfl) none none)
    (Rel.biasRow (fun i => Cert.LibRowVec.castRow_eq_bcastRow b _ _ i) _ _)

variable (V : (c : Dev nD) → (b : Ref sig .tc) → Buf (Elt Ideal) ((c : Thread nD τ).loc b))

/-- What point t writes back is block t of the host's layer of the arrays the region found. -/
theorem flushed_eq (c : Dev nD) (t : Fin cfg3.N) :
    (dat3 V c).flushed 3 t
      = ((cfg3.win 3).blk t).view.read (Elt Ideal) (layer (V c main_v24) (V c main_arg11) (V c main_arg12)) := by
  show (cfg3.win 3).cut (grid3.coords t) ((dat3 V c).after 3 t) = _
  rw [after3_3]
  unfold out3_3
  rw [View.canon_unit_zero zero2]
  simp only [View.ld_unit_zero (S := S5000x128) zero2, View.ld_unit_zero (S := S128x128) zero2, View.ld_unit_zero (S := S128) zero1]
  have hw : (iblk3 V c 1 t : FVec Ideal S128x128 .f32) = V c main_arg11 := by
    funext y; show V c main_arg11 (((cfg3.win 1).blk t).view.emb y) = V c main_arg11 y; rw [embW]
  have hb : (iblk3 V c 2 t : FVec Ideal S128 .f32) = V c main_arg12 := by
    funext y; show V c main_arg12 (((cfg3.win 2).blk t).view.emb y) = V c main_arg12 y; rw [embB]
  have hx : Rel (rowOf t) (φ := .f32) (iblk3 V c 0 t : FVec Ideal S5000x128 .f32) (V c main_v24) := fun p j => by
    show V c main_v24 (((cfg3.win 0).blk t).view.emb (ix2 p j)) = V c main_v24 (ix2 (rowOf t p) j)
    rw [embIn]; rfl
  funext y
  show k3_pay1 (F := Ideal) (iblk3 V c 0 t) (iblk3 V c 1 t) (iblk3 V c 2 t) y
    = layer (V c main_v24) (V c main_arg11) (V c main_arg12) (((cfg3.win 3).blk t).view.emb y)
  rw [embOut, hw, hb, eq_ix2 y]
  exact payload_rows _ _ _ _ hx (y 0) (y 1)

/-- An index of the output array lies in point t's block iff each coordinate lies in the block's range on its axis. -/
theorem mem_block (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v25).slice (win3_3.rect t)).set ↔ _
  rw [View.set_slice_whole, Rect.mem_set_unit]
  exact Iff.rfl

/-- The 20 blocks tile the output array: row r lies in block r / 5000. -/
theorem covered (i : S100000x128.Idx) : ∃ t : Fin cfg3.N, (cfg3.win 3).flush t = true ∧ i ∈ ((cfg3.win 3).blk t).view.set := by
  have hN : grid3.N = 20 := N_3
  have hi0 : (i 0).val < 100000 := (i 0).isLt
  have hi1 : (i 1).val < 128 := (i 1).isLt
  have ht : (i 0).val / 5000 < cfg3.N := by show (i 0).val / 5000 < grid3.N; omega
  obtain ⟨-, -, -, -, -, e5, e6⟩ := blockIndex ⟨(i 0).val / 5000, ht⟩
  refine ⟨⟨(i 0).val / 5000, ht⟩, flush3_3 _, ?_⟩
  rw [mem_block]
  intro a
  match a with
  | ⟨0, _⟩ =>
    show win3_3.index ⟨(i 0).val / 5000, ht⟩ (0 : Fin 2) * 5000 ≤ (i 0).val ∧ (i 0).val < win3_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win3_3.index ⟨(i 0).val / 5000, ht⟩ (1 : Fin 2) * 128 ≤ (i 1).val ∧ (i 1).val < win3_3.index ⟨(i 0).val / 5000, ht⟩ (1 : Fin 2) * 128 + 128
    rw [e6]; omega

/-- After the region its output array is the host's layer of the arrays the region found. -/
theorem final (c : Dev nD) :
    (dat3 V c).arrAt 3 cfg3.N = layer (V c main_v24) (V c main_arg11) (V c main_arg12) :=
  (dat3 V c).arrAt_eq_of_cover 3 _ (fun t _ => flushed_eq V c t) covered

end Cert.Gnn.Region3

end
-- ==== Proof.Region4.lean ====
/-
  Region 4 of the kernel's program: one affine layer, relu(h) · W + b, over the 100000 nodes in 20 blocks of 5000 rows.

  At grid point t the body loads rows 5000·t … 5000·t + 4999 of h (all 128 columns), the whole 128 × 128 weight matrix and
  the whole bias vector, clamps the rows at zero from below, multiplies on the vector unit into a zero accumulator, adds the bias to every row, and stores the
  5000 × 128 result, which is written back to the same rows of the output array.  Row p of the block is therefore row
  5000·t + p of the host's  dot_general(max(h, 0), W) + broadcast(b):  both are  Σ_k max(h[r,k], 0) · W[k,q] + b[q]  at r = 5000·t + p.
  The 20 blocks tile the array (row r lies in block r / 5000), so after the region the output array is that host term of
  the arrays the region found, whatever they are.
-/
import proofs.«145433_j32727650796179_1_alg».proof.Proof.Gen.KernelIdeal.Frame
import proofs.«145433_j32727650796179_1_alg».proof.Proof.Dots
import proofs.«145433_j32727650796179_1_alg».proof.Proof.LibRowVec

set_option maxRecDepth 16384

noncomputable section

namespace Cert.Gnn.Region4

open Idealize.ShloMosaic Idealize.ShloMosaic.TcCoe Idealize.ShloMosaic.ValueIdx Idealize.SL.Sem
open Idealize.ShloMosaic.Pipeline (Dat)
open Cert.KernelIdeal Cert.KernelIdeal.Gen Cert.LibRowRel

/-- What the host computes for this layer from the whole arrays: max(h, 0) · W + b, the bias broadcast over the rows. -/
def layer (h : FVec Ideal S100000x128 .f32) (w : FVec Ideal S128x128 .f32) (b : FVec Ideal S128 .f32) : FVec Ideal S100000x128 .f32 :=
  addf (Host.dotGeneral Cert.ReferenceIdeal.dot_S100000x128_S128x128_S100000x128_1_0_0_1_n_n none
      (maximumf h (broadcastInDim Cert.ReferenceIdeal.S100000x128 ![] Cert.ReferenceIdeal.Gen.bcast_S_S100000x128 (constant Cert.ReferenceIdeal.S_ .f32 0x00000000#32))) w)
    (broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b))

theorem zero2 : (![0, 0] : Fin 2 → Nat) = fun _ => 0 := funext fun a => by fin_cases a <;> rfl
theorem zero1 : (![0] : Fin 1 → Nat) = fun _ => 0 := funext fun a => by fin_cases a; rfl

/-- The printed index maps over the 20 grid points: the row-block windows sit at block (t, 0), the weights and the bias at block 0. -/
theorem blockIndex : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- The array row that row p of block t is. -/
def rowOf (t : Fin cfg4.N) (p : Fin 5000) : Fin 100000 :=
  ⟨t.val * 5000 + p.val, by have hN : cfg4.N = 20 := N_4; have := t.isLt; have := p.isLt; omega⟩

/-- Where the input block's entry (p, k) sits in the node array. -/
theorem embIn (t : Fin cfg4.N) (y : S5000x128.Idx) : ((cfg4.win 0).blk t).view.emb y = ix2 (rowOf t (y 0)) (y 1) := by
  obtain ⟨e0, e1, -⟩ := blockIndex t
  funext a; apply Fin.ext
  match a with
  | ⟨0, _⟩ => show win4_0.index t (0 : Fin 2) * 5000 + 1 * (y 0).val = t.val * 5000 + (y 0).val; rw [e0]; omega
  | ⟨1, _⟩ => show win4_0.index t (1 : Fin 2) * 128 + 1 * (y 1).val = (y 1).val; rw [e1]; omega

/-- Where the output block's entry (p, q) sits in the output array. -/
theorem embOut (t : Fin cfg4.N) (y : S5000x128.Idx) : ((cfg4.win 3).blk t).view.emb y = ix2 (rowOf t (y 0)) (y 1) := by
  obtain ⟨-, -, -, -, -, e5, e6⟩ := blockIndex t
  funext a; apply Fin.ext
  match a with
  | ⟨0, _⟩ => show win4_3.index t (0 : Fin 2) * 5000 + 1 * (y 0).val = t.val * 5000 + (y 0).val; rw [e5]; omega
  | ⟨1, _⟩ => show win4_3.index t (1 : Fin 2) * 128 + 1 * (y 1).val = (y 1).val; rw [e6]; omega

/-- The weight window's one block is the whole matrix. -/
theorem embW (t : Fin cfg4.N) (y : S128x128.Idx) : ((cfg4.win 1).blk t).view.emb y = y := by
  obtain ⟨-, -, e2, e3, -⟩ := blockIndex t
  funext a; apply Fin.ext
  match a with
  | ⟨0, _⟩ => show win4_1.index t (0 : Fin 2) * 128 + 1 * (y 0).val = (y 0).val; rw [e2]; omega
  | ⟨1, _⟩ => show win4_1.index t (1 : Fin 2) * 128 + 1 * (y 1).val = (y 1).val; rw [e3]; omega

/-- The bias window's one block is the whole vector. -/
theorem embB (t : Fin cfg4.N) (y : S128.Idx) : ((cfg4.win 2).blk t).view.emb y = y := by
  obtain ⟨-, -, -, -, e4, -⟩ := blockIndex t
  funext a; apply Fin.ext
  match a with
  | ⟨0, _⟩ => show win4_2.index t (0 : Fin 1) * 128 + 1 * (y 0).val = (y 0).val; rw [e4]; omega

/-- The body's arithmetic keeps rows related: if row p of the loaded block is row ρ p of h, then row p of what the body
    stores is row ρ p of the host's layer of h, with the same weights and bias. -/
theorem payload_rows {ρ : Fin 5000 → Fin 100000} (x0 : FVec Ideal S5000x128 .f32) (w : FVec Ideal S128x128 .f32) (b : FVec Ideal S128 .f32)
    (h : FVec Ideal S100000x128 .f32) (hx : Rel ρ x0 h) : Rel ρ (k4_pay1 (F := Ideal) x0 w b) (layer h w b) := by
  unfold k4_pay1 layer
  have hcast : Rel ρ (shapeCast S5000x128 x0 shapeCasts_S5000x128_S5000x128) h := by rw [shapeCast_self]; exact hx
  exact Rel.addf
    (Rel.matmul Dots.kernel_5000x128x128 Dots.host_100000x128x128
      (Rel.truncf_left _ (Rel.maximumf hcast (Rel.splat _ _))) (fun _ => rfl) none none)
    (Rel.biasRow (fun i => Cert.LibRowVec.castRow_eq_bcastRow b _ _ i) _ _)

variable (V : (c : Dev nD) → (b : Ref sig .tc) → Buf (Elt Ideal) ((c : Thread nD τ).loc b))

/-- What point t writes back is block t of the host's layer of the arrays the region found. -/
theorem flushed_eq (c : Dev nD) (t : Fin cfg4.N) :
    (dat4 V c).flushed 3 t
      = ((cfg4.win 3).blk t).view.read (Elt Ideal) (layer (V c main_v38) (V c main_arg13) (V c main_arg14)) := by
  show (cfg4.win 3).cut (grid4.coords t) ((dat4 V c).after 3 t) = _
  rw [after4_3]
  unfold out4_3
  rw [View.canon_unit_zero zero2]
  simp only [View.ld_unit_zero (S := S5000x128) zero2, View.ld_unit_zero (S := S128x128) zero2, View.ld_unit_zero (S := S128) zero1]
  have hw : (iblk4 V c 1 t : FVec Ideal S128x128 .f32) = V c main_arg13 := by
    funext y; show V c main_arg13 (((cfg4.win 1).blk t).view.emb y) = V c main_arg13 y; rw [embW]
  have hb : (iblk4 V c 2 t : FVec Ideal S128 .f32) = V c main_arg14 := by
    funext y; show V c main_arg14 (((cfg4.win 2).blk t).view.emb y) = V c main_arg14 y; rw [embB]
  have hx : Rel (rowOf t) (φ := .f32) (iblk4 V c 0 t : FVec Ideal S5000x128 .f32) (V c main_v38) := fun p j => by
    show V c main_v38 (((cfg4.win 0).blk t).view.emb (ix2 p j)) = V c main_v38 (ix2 (rowOf t p) j)
    rw [embIn]; rfl
  funext y
  show k4_pay1 (F := Ideal) (iblk4 V c 0 t) (iblk4 V c 1 t) (iblk4 V c 2 t) y
    = layer (V c main_v38) (V c main_arg13) (V c main_arg14) (((cfg4.win 3).blk t).view.emb y)
  rw [embOut, hw, hb, eq_ix2 y]
  exact payload_rows _ _ _ _ hx (y 0) (y 1)

/-- An index of the output array lies in point t's block iff each coordinate lies in the block's range on its axis. -/
theorem mem_block (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v39).slice (win4_3.rect t)).set ↔ _
  rw [View.set_slice_whole, Rect.mem_set_unit]
  exact Iff.rfl

/-- The 20 blocks tile the output array: row r lies in block r / 5000. -/
theorem covered (i : S100000x128.Idx) : ∃ t : Fin cfg4.N, (cfg4.win 3).flush t = true ∧ i ∈ ((cfg4.win 3).blk t).view.set := by
  have hN : grid4.N = 20 := N_4
  have hi0 : (i 0).val < 100000 := (i 0).isLt
  have hi1 : (i 1).val < 128 := (i 1).isLt
  have ht : (i 0).val / 5000 < cfg4.N := by show (i 0).val / 5000 < grid4.N; omega
  obtain ⟨-, -, -, -, -, e5, e6⟩ := blockIndex ⟨(i 0).val / 5000, ht⟩
  refine ⟨⟨(i 0).val / 5000, ht⟩, flush4_3 _, ?_⟩
  rw [mem_block]
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win4_3.index ⟨(i 0).val / 5000, ht⟩ (1 : Fin 2) * 128 ≤ (i 1).val ∧ (i 1).val < win4_3.index ⟨(i 0).val / 5000, ht⟩ (1 : Fin 2) * 128 + 128
    rw [e6]; omega

/-- After the region its output array is the host's layer of the arrays the region found. -/
theorem final (c : Dev nD) :
    (dat4 V c).arrAt 3 cfg4.N = layer (V c main_v38) (V c main_arg13) (V c main_arg14) :=
  (dat4 V c).arrAt_eq_of_cover 3 _ (fun t _ => flushed_eq V c t) covered

end Cert.Gnn.Region4

end
-- ==== Proof.Region5.lean ====
/-
  Region 5 of the kernel's program: the predictor, max(fp · W1 + b1, 0) · W2 + b2, on the 2048 pooled graph features, in
  one grid point.

  Every window is its whole array: the body loads the 2048 × 128 pooled features, the 128 × 128 and 128 × 1 weight
  matrices and the two bias vectors, and stores the 2048 × 1 result, written back as the whole output array.  Entry
  (p, 0) is, on both sides, Σ_j max(Σ_k fp[p,k] · W1[k,j] + b1[j], 0) · W2[j,0] + b2[0]: the vector unit's two products
  into zero accumulators are the host's two dot_generals, the bias rows are the host's broadcasts, the clamp is the host's
  maximum with the broadcast zero.
-/
import proofs.«145433_j32727650796179_1_alg».proof.Proof.Gen.KernelIdeal.Frame
import proofs.«145433_j32727650796179_1_alg».proof.Proof.Dots
import proofs.«145433_j32727650796179_1_alg».proof.Proof.LibRowVec

set_option maxRecDepth 16384

noncomputable section

namespace Cert.Gnn.Region5

open Idealize.ShloMosaic Idealize.ShloMosaic.TcCoe Idealize.ShloMosaic.ValueIdx Idealize.SL.Sem
open Idealize.ShloMosaic.Pipeline (Dat)
open Cert.KernelIdeal Cert.KernelIdeal.Gen Cert.LibRowRel

/-- What the host computes from the whole arrays. -/
def predict (fp : FVec Ideal S2048x128 .f32) (w1 : FVec Ideal S128x128 .f32) (b1 : FVec Ideal S128 .f32)
    (w2 : FVec Ideal S128x1 .f32) (b2 : FVec Ideal S1 .f32) : FVec Ideal S2048x1 .f32 :=
  addf
    (Host.dotGeneral Cert.ReferenceIdeal.dot_S2048x128_S128x1_S2048x1_1_0_0_1_n_n none
      (maximumf
        (addf (Host.dotGeneral Cert.ReferenceIdeal.dot_S2048x128_S128x128_S2048x128_1_0_0_1_n_n none fp w1)
          (broadcastInDim Cert.ReferenceIdeal.S2048x128 ![0, 1] Cert.ReferenceIdeal.Gen.bcast_S1x128_S2048x128_0_1
            (broadcastInDim Cert.ReferenceIdeal.S1x128 ![1] Cert.ReferenceIdeal.Gen.bcast_S128_S1x128_1 b1)))
        (broadcastInDim Cert.ReferenceIdeal.S2048x128 ![] Cert.ReferenceIdeal.Gen.bcast_S_S2048x128 (constant Cert.ReferenceIdeal.S_ .f32 0x00000000#32)))
      w2)
    (broadcastInDim Cert.ReferenceIdeal.S2048x1 ![0, 1] Cert.ReferenceIdeal.Gen.bcast_S1x1_S2048x1_0_1
      (broadcastInDim Cert.ReferenceIdeal.S1x1 ![1] Cert.ReferenceIdeal.Gen.bcast_S1_S1x1_1 b2))

theorem zero2 : (![0, 0] : Fin 2 → Nat) = fun _ => 0 := funext fun a => by fin_cases a <;> rfl
theorem zero1 : (![0] : Fin 1 → Nat) = fun _ => 0 := funext fun a => by fin_cases a; rfl

/-- The printed index maps at the one grid point: every window sits at block 0. -/
theorem blockIndex : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (0 : Fin 2) = 0 ∧ win5_5.index t (1 : Fin 2) = 0 :=
  (by decide +kernel : ∀ t : Fin grid5.N, _)

theorem emb0 (t : Fin cfg5.N) (y : S2048x128.Idx) : ((cfg5.win 0).blk t).view.emb y = y := by
  obtain ⟨e0, e1, -⟩ := blockIndex t
  funext a; apply Fin.ext
  match a with
  | ⟨0, _⟩ => show win5_0.index t (0 : Fin 2) * 2048 + 1 * (y 0).val = (y 0).val; rw [e0]; omega
  | ⟨1, _⟩ => show win5_0.index t (1 : Fin 2) * 128 + 1 * (y 1).val = (y 1).val; rw [e1]; omega

theorem emb1 (t : Fin cfg5.N) (y : S128x128.Idx) : ((cfg5.win 1).blk t).view.emb y = y := by
  obtain ⟨-, -, e2, e3, -⟩ := blockIndex t
  funext a; apply Fin.ext
  match a with
  | ⟨0, _⟩ => show win5_1.index t (0 : Fin 2) * 128 + 1 * (y 0).val = (y 0).val; rw [e2]; omega
  | ⟨1, _⟩ => show win5_1.index t (1 : Fin 2) * 128 + 1 * (y 1).val = (y 1).val; rw [e3]; omega

theorem emb2 (t : Fin cfg5.N) (y : S128.Idx) : ((cfg5.win 2).blk t).view.emb y = y := by
  obtain ⟨-, -, -, -, e4, -⟩ := blockIndex t
  funext a; apply Fin.ext
  match a with
  | ⟨0, _⟩ => show win5_2.index t (0 : Fin 1) * 128 + 1 * (y 0).val = (y 0).val; rw [e4]; omega

theorem emb3 (t : Fin cfg5.N) (y : S128x1.Idx) : ((cfg5.win 3).blk t).view.emb y = y := by
  obtain ⟨-, -, -, -, -, e5, e6, -⟩ := blockIndex t
  funext a; apply Fin.ext
  match a with
  | ⟨0, _⟩ => show win5_3.index t (0 : Fin 2) * 128 + 1 * (y 0).val = (y 0).val; rw [e5]; omega
  | ⟨1, _⟩ => show win5_3.index t (1 : Fin 2) * 1 + 1 * (y 1).val = (y 1).val; rw [e6]; omega

theorem emb4 (t : Fin cfg5.N) (y : S1.Idx) : ((cfg5.win 4).blk t).view.emb y = y := by
  obtain ⟨-, -, -, -, -, -, -, e7, -⟩ := blockIndex t
  funext a; apply Fin.ext
  match a with
  | ⟨0, _⟩ => show win5_4.index t (0 : Fin 1) * 1 + 1 * (y 0).val = (y 0).val; rw [e7]; omega

theorem emb5 (t : Fin cfg5.N) (y : S2048x1.Idx) : ((cfg5.win 5).blk t).view.emb y = y := by
  obtain ⟨-, -, -, -, -, -, -, -, e8, e9⟩ := blockIndex t
  funext a; apply Fin.ext
  match a with
  | ⟨0, _⟩ => show win5_5.index t (0 : Fin 2) * 2048 + 1 * (y 0).val = (y 0).val; rw [e8]; omega
  | ⟨1, _⟩ => show win5_5.index t (1 : Fin 2) * 1 + 1 * (y 1).val = (y 1).val; rw [e9]; omega

/-- The body's arithmetic is the host's, row by row (each row is its own row). -/
theorem payload_rows (x0 : FVec Ideal S2048x128 .f32) (w1 : FVec Ideal S128x128 .f32) (b1 : FVec Ideal S128 .f32)
    (w2 : FVec Ideal S128x1 .f32) (b2 : FVec Ideal S1 .f32) :
    Rel (fun p : Fin 2048 => p) (k5_pay1 (F := Ideal) x0 w1 b1 w2 b2) (predict x0 w1 b1 w2 b2) := by
  unfold k5_pay1 predict
  have hcast : Rel (fun p : Fin 2048 => p) (shapeCast S2048x128 x0 shapeCasts_S2048x128_S2048x128) x0 := by
    rw [shapeCast_self]; exact fun _ _ => rfl
  exact Rel.addf
    (Rel.matmul Dots.kernel_2048x128x1 Dots.host_2048x128x1
      (Rel.truncf_left _
        (Rel.maximumf
          (Rel.addf
            (Rel.matmul Dots.kernel_2048x128x128 Dots.host_2048x128x128 (Rel.truncf_left _ hcast) (fun _ => rfl) none none)
            (Rel.biasRow (fun i => Cert.LibRowVec.castRow_eq_bcastRow b1 _ _ i) _ _))
          (Rel.splat _ _)))
      (fun _ => rfl) none none)
    (Rel.biasRow (fun i => Cert.LibRowVec.castRow_eq_bcastRow b2 _ _ i) _ _)

variable (V : (c : Dev nD) → (b : Ref sig .tc) → Buf (Elt Ideal) ((c : Thread nD τ).loc b))

/-- What the one point writes back is the host's prediction from the arrays the region found. -/
theorem flushed_eq (c : Dev nD) (t : Fin cfg5.N) :
    (dat5 V c).flushed 5 t
      = ((cfg5.win 5).blk t).view.read (Elt Ideal)
          (predict (V c main_v57) (V c main_arg15) (V c main_arg16) (V c main_arg17) (V c main_arg18)) := by
  show (cfg5.win 5).cut (grid5.coords t) ((dat5 V c).after 5 t) = _
  rw [after5_5]
  unfold out5_5
  rw [View.canon_unit_zero zero2]
  simp only [View.ld_unit_zero (S := S2048x128) zero2, View.ld_unit_zero (S := S128x128) zero2, View.ld_unit_zero (S := S128) zero1,
    View.ld_unit_zero (S := S128x1) zero2, View.ld_unit_zero (S := S1) zero1]
  have h0 : (iblk5 V c 0 t : FVec Ideal S2048x128 .f32) = V c main_v57 := by
    funext y; show V c main_v57 (((cfg5.win 0).blk t).view.emb y) = V c main_v57 y; rw [emb0]
  have h1 : (iblk5 V c 1 t : FVec Ideal S128x128 .f32) = V c main_arg15 := by
    funext y; show V c main_arg15 (((cfg5.win 1).blk t).view.emb y) = V c main_arg15 y; rw [emb1]
  have h2 : (iblk5 V c 2 t : FVec Ideal S128 .f32) = V c main_arg16 := by
    funext y; show V c main_arg16 (((cfg5.win 2).blk t).view.emb y) = V c main_arg16 y; rw [emb2]
  have h3 : (iblk5 V c 3 t : FVec Ideal S128x1 .f32) = V c main_arg17 := by
    funext y; show V c main_arg17 (((cfg5.win 3).blk t).view.emb y) = V c main_arg17 y; rw [emb3]
  have h4 : (iblk5 V c 4 t : FVec Ideal S1 .f32) = V c main_arg18 := by
    funext y; show V c main_arg18 (((cfg5.win 4).blk t).view.emb y) = V c main_arg18 y; rw [emb4]
  funext y
  show k5_pay1 (F := Ideal) (iblk5 V c 0 t) (iblk5 V c 1 t) (iblk5 V c 2 t) (iblk5 V c 3 t) (iblk5 V c 4 t) y
    = predict (V c main_v57) (V c main_arg15) (V c main_arg16) (V c main_arg17) (V c main_arg18) (((cfg5.win 5).blk t).view.emb y)
  rw [emb5, h0, h1, h2, h3, h4, eq_ix2 y]
  exact payload_rows _ _ _ _ _ (y 0) (y 1)

theorem mem_block (t : Fin cfg5.N) (i : S2048x1.Idx) :
    i ∈ ((cfg5.win 5).blk t).view.set ↔ ∀ a : Fin 2, win5_5.index t a * S2048x1.size a ≤ (i a).val ∧ (i a).val < win5_5.index t a * S2048x1.size a + S2048x1.size a := by
  show i ∈ ((View.whole main_v58).slice (win5_5.rect t)).set ↔ _
  rw [View.set_slice_whole, Rect.mem_set_unit]
  exact Iff.rfl

/-- The one block is the whole output array. -/
theorem covered (i : S2048x1.Idx) : ∃ t : Fin cfg5.N, (cfg5.win 5).flush t = true ∧ i ∈ ((cfg5.win 5).blk t).view.set := by
  have hi0 : (i 0).val < 2048 := (i 0).isLt
  have hi1 : (i 1).val < 1 := (i 1).isLt
  obtain ⟨-, -, -, -, -, -, -, -, e8, e9⟩ := blockIndex t5_0
  refine ⟨t5_0, flush5_5 _, ?_⟩
  rw [mem_block]
  intro a
  match a with
  | ⟨0, _⟩ =>
    show win5_5.index t5_0 (0 : Fin 2) * 2048 ≤ (i 0).val ∧ (i 0).val < win5_5.index t5_0 (0 : Fin 2) * 2048 + 2048
    rw [e8]; omega
  | ⟨1, _⟩ =>
    show win5_5.index t5_0 (1 : Fin 2) * 1 ≤ (i 1).val ∧ (i 1).val < win5_5.index t5_0 (1 : Fin 2) * 1 + 1
    rw [e9]; omega

/-- After the region its output array is the host's prediction from the arrays the region found. -/
theorem final (c : Dev nD) :
    (dat5 V c).arrAt 5 cfg5.N = predict (V c main_v57) (V c main_arg15) (V c main_arg16) (V c main_arg17) (V c main_arg18) :=
  (dat5 V c).arrAt_eq_of_cover 5 _ (fun t _ => flushed_eq V c t) covered

end Cert.Gnn.Region5

end
-- ==== Proof.Walk.lean ====
/-
  The kernel's buffers at the eleven segment boundaries, as the reference's stages of the launch arrays.

  The program alternates six vector-unit regions with five stretches of host operations.  Write x0 … x18 for the nineteen
  argument arrays as launched.  No segment writes an argument, and the two index vectors the host cuts out of adj_index
  (the source and destination node of every edge) are written once and then only read; so at every later boundary those
  buffers still hold what they held.  Each region's output array is the host's dense stage of the arrays the region found
  (the six region theorems), and each host stretch is the same scatter, gather, broadcast, select and multiply the
  reference applies.  Walking the boundaries in order, the buffer a region or stretch leaves is therefore the reference's
  stage of x0 … x18:

    edge products  →  their sum per destination node  →  node embedding  →  (layer · gather · scale · sum per source node) three times
    →  the clamp  →  the sum per graph  →  the prediction,

  and the last of them, the kernel's result array after region 5, is the reference's result term.
-/
import proofs.«145433_j32727650796179_1_alg».proof.Proof.Gen.KernelIdeal.Frame
import proofs.«145433_j32727650796179_1_alg».proof.Proof.Gen.ReferenceIdeal.Read
import proofs.«145433_j32727650796179_1_alg».proof.Proof.Region0
import proofs.«145433_j32727650796179_1_alg».proof.Proof.Region1
import proofs.«145433_j32727650796179_1_alg».proof.Proof.Region2
import proofs.«145433_j32727650796179_1_alg».proof.Proof.Region3
import proofs.«145433_j32727650796179_1_alg».proof.Proof.Region4
import proofs.«145433_j32727650796179_1_alg».proof.Proof.Region5

set_option maxRecDepth 16384

noncomputable section

namespace Cert.Gnn.Walk

open Idealize.ShloMosaic Idealize.ShloMosaic.TcCoe Idealize.SL.Sem Idealize.ShloMosaic.StableHlo
open Cert.KernelIdeal Cert.KernelIdeal.Gen

/-! ## What each host stretch writes -/

/-- Host stretch 1 writes only these buffers. -/
theorem writes1 : (hostOps1 : List (HloOp τ sig (Elt Ideal))).Forall fun op =>
    op.writes ⊆ (([main_v1, main_v2, main_cst, main_v3, main_v4, main_v5] : List (Ref sig .tc)).map (Proc.devRef (τ := τ) .tc)).toFinset := by
  simp only [hostOps1, List.Forall, nullary_writes, unary_writes, binary_writes, ternary_writes, reshape_writes, Finset.singleton_subset_iff]
  repeat' apply And.intro
  all_goals exact List.mem_toFinset.mpr (List.mem_map.mpr ⟨_, by decide, rfl⟩)

/-- Host stretch 2 writes only these buffers. -/
theorem writes2 : (hostOps2 : List (HloOp τ sig (Elt Ideal))).Forall fun op =>
    op.writes ⊆ (([main_v7, main_v8, main_v9, main_v10] : List (Ref sig .tc)).map (Proc.devRef (τ := τ) .tc)).toFinset := by
  simp only [hostOps2, List.Forall, nullary_writes, unary_writes, binary_writes, ternary_writes, reshape_writes, Finset.singleton_subset_iff]
  repeat' apply And.intro
  all_goals exact List.mem_toFinset.mpr (List.mem_map.mpr ⟨_, by decide, rfl⟩)

/-- Host stretch 3 writes only these buffers. -/
theorem writes3 : (hostOps3 : List (HloOp τ sig (Elt Ideal))).Forall fun op =>
    op.writes ⊆ (([main_v12, main_c, main_v13, main_v14, main_c_0, main_v15, main_v16, main_v17, main_v18, main_v19, main_v20, main_v21, main_cst_1, main_v22, main_v23, main_v24] : List (Ref sig .tc)).map (Proc.devRef (τ := τ) .tc)).toFinset := by
  simp only [hostOps3, List.Forall, nullary_writes, unary_writes, binary_writes, ternary_writes, reshape_writes, Finset.singleton_subset_iff]
  repeat' apply And.intro
  all_goals exact List.mem_toFinset.mpr (List.mem_map.mpr ⟨_, by decide, rfl⟩)

/-- Host stretch 4 writes only these buffers. -/
theorem writes4 : (hostOps4 : List (HloOp τ sig (Elt Ideal))).Forall fun op =>
    op.writes ⊆ (([main_v26, main_c_2, main_v27, main_v28, main_c_3, main_v29, main_v30, main_v31, main_v32, main_v33, main_v34, main_v35, main_cst_4, main_v36, main_v37, main_v38] : List (Ref sig .tc)).map (Proc.devRef (τ := τ) .tc)).toFinset := by
  simp only [hostOps4, List.Forall, nullary_writes, unary_writes, binary_writes, ternary_writes, reshape_writes, Finset.singleton_subset_iff]
  repeat' apply And.intro
  all_goals exact List.mem_toFinset.mpr (List.mem_map.mpr ⟨_, by decide, rfl⟩)

/-- Host stretch 5 writes only these buffers. -/
theorem writes5 : (hostOps5 : List (HloOp τ sig (Elt Ideal))).Forall fun op =>
    op.writes ⊆ (([main_v40, main_c_5, main_v41, main_v42, main_c_6, main_v43, main_v44, main_v45, main_v46, main_v47, main_v48, main_v49, main_cst_7, main_v50, main_v51, main_v52, main_cst_8, main_v53, main_v54, main_cst_9, main_v55, main_v56, main_v57] : List (Ref sig .tc)).map (Proc.devRef (τ := τ) .tc)).toFinset := by
  simp only [hostOps5, List.Forall, nullary_writes, unary_writes, binary_writes, ternary_writes, reshape_writes, Finset.singleton_subset_iff]
  repeat' apply And.intro
  all_goals exact List.mem_toFinset.mpr (List.mem_map.mpr ⟨_, by decide, rfl⟩)

variable (m : (ℓ : Loc nD τ sig) → Buf (Elt Ideal) ℓ) (ρ : Dev nD → PrngReg) (c : Dev nD)

/-! ## A buffer a segment does not write keeps its contents -/

theorem keepHost1 (b : Ref sig .tc) (hb : b ∉ ([main_v1, main_v2, main_cst, main_v3, main_v4, main_v5] : List (Ref sig .tc))) :
    W2 m ρ c (Proc.devRef .tc b) = W1 m ρ c (Proc.devRef .tc b) :=
  after_of_writes_sub hostOps1 (W1 m ρ c) writes1 hb

theorem keepHost2 (b : Ref sig .tc) (hb : b ∉ ([main_v7, main_v8, main_v9, main_v10] : List (Ref sig .tc))) :
    W4 m ρ c (Proc.devRef .tc b) = W3 m ρ c (Proc.devRef .tc b) :=
  after_of_writes_sub hostOps2 (W3 m ρ c) writes2 hb

theorem keepHost3 (b : Ref sig .tc) (hb : b ∉ ([main_v12, main_c, main_v13, main_v14, main_c_0, main_v15, main_v16, main_v17, main_v18, main_v19, main_v20, main_v21, main_cst_1, main_v22, main_v23, main_v24] : List (Ref sig .tc))) :
    W6 m ρ c (Proc.devRef .tc b) = W5 m ρ c (Proc.devRef .tc b) :=
  after_of_writes_sub hostOps3 (W5 m ρ c) writes3 hb

theorem keepHost4 (b : Ref sig .tc) (hb : b ∉ ([main_v26, main_c_2, main_v27, main_v28, main_c_3, main_v29, main_v30, main_v31, main_v32, main_v33, main_v34, main_v35, main_cst_4, main_v36, main_v37, main_v38] : List (Ref sig .tc))) :
    W8 m ρ c (Proc.devRef .tc b) = W7 m ρ c (Proc.devRef .tc b) :=
  after_of_writes_sub hostOps4 (W7 m ρ c) writes4 hb

theorem keepHost5 (b : Ref sig .tc) (hb : b ∉ ([main_v40, main_c_5, main_v41, main_v42, main_c_6, main_v43, main_v44, main_v45, main_v46, main_v47, main_v48, main_v49, main_cst_7, main_v50, main_v51, main_v52, main_cst_8, main_v53, main_v54, main_cst_9, main_v55, main_v56, main_v57] : List (Ref sig .tc))) :
    W10 m ρ c (Proc.devRef .tc b) = W9 m ρ c (Proc.devRef .tc b) :=
  after_of_writes_sub hostOps5 (W9 m ρ c) writes5 hb

/-! ## A buffer no segment has written so far still holds its launch contents -/

theorem launched1 (b : Ref sig .tc) (h1 : ∀ w, Pipeline.arrRef spec0 w ≠ b) :
    W1 m ρ c (Proc.devRef .tc b) = m ((c : Thread nD τ).loc b) :=
  (W1_of_ne m ρ c b h1).trans (rfl)

theorem launched2 (b : Ref sig .tc) (h1 : ∀ w, Pipeline.arrRef spec0 w ≠ b) (h2 : b ∉ ([main_v1, main_v2, main_cst, main_v3, main_v4, main_v5] : List (Ref sig .tc))) :
    W2 m ρ c (Proc.devRef .tc b) = m ((c : Thread nD τ).loc b) :=
  (keepHost1 m ρ c b h2).trans (launched1 m ρ c b h1)

theorem launched3 (b : Ref sig .tc) (h1 : ∀ w, Pipeline.arrRef spec0 w ≠ b) (h2 : b ∉ ([main_v1, main_v2, main_cst, main_v3, main_v4, main_v5] : List (Ref sig .tc))) (h3 : ∀ w, Pipeline.arrRef spec1 w ≠ b) :
    W3 m ρ c (Proc.devRef .tc b) = m ((c : Thread nD τ).loc b) :=
  (W3_of_ne m ρ c b h3).trans (launched2 m ρ c b h1 h2)

theorem launched4 (b : Ref sig .tc) (h1 : ∀ w, Pipeline.arrRef spec0 w ≠ b) (h2 : b ∉ ([main_v1, main_v2, main_cst, main_v3, main_v4, main_v5] : List (Ref sig .tc))) (h3 : ∀ w, Pipeline.arrRef spec1 w ≠ b) (h4 : b ∉ ([main_v7, main_v8, main_v9, main_v10] : List (Ref sig .tc))) :
    W4 m ρ c (Proc.devRef .tc b) = m ((c : Thread nD τ).loc b) :=
  (keepHost2 m ρ c b h4).trans (launched3 m ρ c b h1 h2 h3)

theorem launched5 (b : Ref sig .tc) (h1 : ∀ w, Pipeline.arrRef spec0 w ≠ b) (h2 : b ∉ ([main_v1, main_v2, main_cst, main_v3, main_v4, main_v5] : List (Ref sig .tc))) (h3 : ∀ w, Pipeline.arrRef spec1 w ≠ b) (h4 : b ∉ ([main_v7, main_v8, main_v9, main_v10] : List (Ref sig .tc))) (h5 : ∀ w, Pipeline.arrRef spec2 w ≠ b) :
    W5 m ρ c (Proc.devRef .tc b) = m ((c : Thread nD τ).loc b) :=
  (W5_of_ne m ρ c b h5).trans (launched4 m ρ c b h1 h2 h3 h4)

theorem launched6 (b : Ref sig .tc) (h1 : ∀ w, Pipeline.arrRef spec0 w ≠ b) (h2 : b ∉ ([main_v1, main_v2, main_cst, main_v3, main_v4, main_v5] : List (Ref sig .tc))) (h3 : ∀ w, Pipeline.arrRef spec1 w ≠ b) (h4 : b ∉ ([main_v7, main_v8, main_v9, main_v10] : List (Ref sig .tc))) (h5 : ∀ w, Pipeline.arrRef spec2 w ≠ b) (h6 : b ∉ ([main_v12, main_c, main_v13, main_v14, main_c_0, main_v15, main_v16, main_v17, main_v18, main_v19, main_v20, main_v21, main_cst_1, main_v22, main_v23, main_v24] : List (Ref sig .tc))) :
    W6 m ρ c (Proc.devRef .tc b) = m ((c : Thread nD τ).loc b) :=
  (keepHost3 m ρ c b h6).trans (launched5 m ρ c b h1 h2 h3 h4 h5)

theorem launched7 (b : Ref sig .tc) (h1 : ∀ w, Pipeline.arrRef spec0 w ≠ b) (h2 : b ∉ ([main_v1, main_v2, main_cst, main_v3, main_v4, main_v5] : List (Ref sig .tc))) (h3 : ∀ w, Pipeline.arrRef spec1 w ≠ b) (h4 : b ∉ ([main_v7, main_v8, main_v9, main_v10] : List (Ref sig .tc))) (h5 : ∀ w, Pipeline.arrRef spec2 w ≠ b) (h6 : b ∉ ([main_v12, main_c, main_v13, main_v14, main_c_0, main_v15, main_v16, main_v17, main_v18, main_v19, main_v20, main_v21, main_cst_1, main_v22, main_v23, main_v24] : List (Ref sig .tc))) (h7 : ∀ w, Pipeline.arrRef spec3 w ≠ b) :
    W7 m ρ c (Proc.devRef .tc b) = m ((c : Thread nD τ).loc b) :=
  (W7_of_ne m ρ c b h7).trans (launched6 m ρ c b h1 h2 h3 h4 h5 h6)

theorem launched8 (b : Ref sig .tc) (h1 : ∀ w, Pipeline.arrRef spec0 w ≠ b) (h2 : b ∉ ([main_v1, main_v2, main_cst, main_v3, main_v4, main_v5] : List (Ref sig .tc))) (h3 : ∀ w, Pipeline.arrRef spec1 w ≠ b) (h4 : b ∉ ([main_v7, main_v8, main_v9, main_v10] : List (Ref sig .tc))) (h5 : ∀ w, Pipeline.arrRef spec2 w ≠ b) (h6 : b ∉ ([main_v12, main_c, main_v13, main_v14, main_c_0, main_v15, main_v16, main_v17, main_v18, main_v19, main_v20, main_v21, main_cst_1, main_v22, main_v23, main_v24] : List (Ref sig .tc))) (h7 : ∀ w, Pipeline.arrRef spec3 w ≠ b) (h8 : b ∉ ([main_v26, main_c_2, main_v27, main_v28, main_c_3, main_v29, main_v30, main_v31, main_v32, main_v33, main_v34, main_v35, main_cst_4, main_v36, main_v37, main_v38] : List (Ref sig .tc))) :
    W8 m ρ c (Proc.devRef .tc b) = m ((c : Thread nD τ).loc b) :=
  (keepHost4 m ρ c b h8).trans (launched7 m ρ c b h1 h2 h3 h4 h5 h6 h7)

theorem launched9 (b : Ref sig .tc) (h1 : ∀ w, Pipeline.arrRef spec0 w ≠ b) (h2 : b ∉ ([main_v1, main_v2, main_cst, main_v3, main_v4, main_v5] : List (Ref sig .tc))) (h3 : ∀ w, Pipeline.arrRef spec1 w ≠ b) (h4 : b ∉ ([main_v7, main_v8, main_v9, main_v10] : List (Ref sig .tc))) (h5 : ∀ w, Pipeline.arrRef spec2 w ≠ b) (h6 : b ∉ ([main_v12, main_c, main_v13, main_v14, main_c_0, main_v15, main_v16, main_v17, main_v18, main_v19, main_v20, main_v21, main_cst_1, main_v22, main_v23, main_v24] : List (Ref sig .tc))) (h7 : ∀ w, Pipeline.arrRef spec3 w ≠ b) (h8 : b ∉ ([main_v26, main_c_2, main_v27, main_v28, main_c_3, main_v29, main_v30, main_v31, main_v32, main_v33, main_v34, main_v35, main_cst_4, main_v36, main_v37, main_v38] : List (Ref sig .tc))) (h9 : ∀ w, Pipeline.arrRef spec4 w ≠ b) :
    W9 m ρ c (Proc.devRef .tc b) = m ((c : Thread nD τ).loc b) :=
  (W9_of_ne m ρ c b h9).trans (launched8 m ρ c b h1 h2 h3 h4 h5 h6 h7 h8)

theorem launched10 (b : Ref sig .tc) (h1 : ∀ w, Pipeline.arrRef spec0 w ≠ b) (h2 : b ∉ ([main_v1, main_v2, main_cst, main_v3, main_v4, main_v5] : List (Ref sig .tc))) (h3 : ∀ w, Pipeline.arrRef spec1 w ≠ b) (h4 : b ∉ ([main_v7, main_v8, main_v9, main_v10] : List (Ref sig .tc))) (h5 : ∀ w, Pipeline.arrRef spec2 w ≠ b) (h6 : b ∉ ([main_v12, main_c, main_v13, main_v14, main_c_0, main_v15, main_v16, main_v17, main_v18, main_v19, main_v20, main_v21, main_cst_1, main_v22, main_v23, main_v24] : List (Ref sig .tc))) (h7 : ∀ w, Pipeline.arrRef spec3 w ≠ b) (h8 : b ∉ ([main_v26, main_c_2, main_v27, main_v28, main_c_3, main_v29, main_v30, main_v31, main_v32, main_v33, main_v34, main_v35, main_cst_4, main_v36, main_v37, main_v38] : List (Ref sig .tc))) (h9 : ∀ w, Pipeline.arrRef spec4 w ≠ b) (h10 : b ∉ ([main_v40, main_c_5, main_v41, main_v42, main_c_6, main_v43, main_v44, main_v45, main_v46, main_v47, main_v48, main_v49, main_cst_7, main_v50, main_v51, main_v52, main_cst_8, main_v53, main_v54, main_cst_9, main_v55, main_v56, main_v57] : List (Ref sig .tc))) :
    W10 m ρ c (Proc.devRef .tc b) = m ((c : Thread nD τ).loc b) :=
  (keepHost5 m ρ c b h10).trans (launched9 m ρ c b h1 h2 h3 h4 h5 h6 h7 h8 h9)

/-! ## The edge embedding and its sum per destination node -/

/-- After region 0 its output holds the product of the edge attributes with the edge weights. -/
theorem edgeProducts : W1 m ρ c (Proc.devRef .tc main_v0) = Cert.ReferenceIdeal.Read.val_main_v0 (F := Ideal) (m ((c : Thread nD τ).loc main_arg1)) (m ((c : Thread nD τ).loc main_arg7)) :=
  ((W1_arr m ρ c 2).trans (Region0.final (V0 m ρ) c)).trans rfl

/-- After the first host stretch: the products summed per destination node. -/
theorem edgeSums : W2 m ρ c (Proc.devRef .tc main_v5) = Cert.ReferenceIdeal.Read.val_main_v5 (F := Ideal) (m ((c : Thread nD τ).loc main_arg1)) (m ((c : Thread nD τ).loc main_arg2)) (m ((c : Thread nD τ).loc main_arg7)) := by
  show after hostOps1 (W1 m ρ c) (Proc.devRef .tc main_v5) = _
  dsimp only [hostOps1]
  after_results_simp
  rw [edgeProducts m ρ c, launched1 m ρ c main_arg2 (by decide)]
  rfl

/-! ## The node embedding -/

theorem nodeEmbedding : W3 m ρ c (Proc.devRef .tc main_v6) = Cert.ReferenceIdeal.Read.val_main_v11 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) := by
  refine ((W3_arr m ρ c 4).trans (Region1.final (V2 m ρ) c)).trans ?_
  show Region1.embed (W2 m ρ c (Proc.devRef .tc main_arg0)) (W2 m ρ c (Proc.devRef .tc main_v5)) (W2 m ρ c (Proc.devRef .tc main_arg6)) (W2 m ρ c (Proc.devRef .tc main_arg8)) = _
  rw [launched2 m ρ c main_arg0 (by decide) (by decide), edgeSums m ρ c, launched2 m ρ c main_arg6 (by decide) (by decide), launched2 m ρ c main_arg8 (by decide) (by decide)]
  rfl

/-! ## The source and the destination node of every edge, cut out of adj_index once and read by all three layers -/

theorem sources4 : W4 m ρ c (Proc.devRef .tc main_v8) = Cert.ReferenceIdeal.Read.val_main_v13 (F := Ideal) (m ((c : Thread nD τ).loc main_arg3)) := by
  show after hostOps2 (W3 m ρ c) (Proc.devRef .tc main_v8) = _
  dsimp only [hostOps2]
  after_results_simp
  rw [launched3 m ρ c main_arg3 (by decide) (by decide) (by decide)]
  rfl

theorem targets4 : W4 m ρ c (Proc.devRef .tc main_v10) = Cert.ReferenceIdeal.Read.val_main_v15 (F := Ideal) (m ((c : Thread nD τ).loc main_arg3)) := by
  show after hostOps2 (W3 m ρ c) (Proc.devRef .tc main_v10) = _
  dsimp only [hostOps2]
  after_results_simp
  rw [launched3 m ρ c main_arg3 (by decide) (by decide) (by decide)]
  rfl

theorem nodeEmbedding4 : W4 m ρ c (Proc.devRef .tc main_v6) = Cert.ReferenceIdeal.Read.val_main_v11 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) :=
  (keepHost2 m ρ c main_v6 (by decide)).trans (nodeEmbedding m ρ c)

theorem sources5 : W5 m ρ c (Proc.devRef .tc main_v8) = Cert.ReferenceIdeal.Read.val_main_v13 (F := Ideal) (m ((c : Thread nD τ).loc main_arg3)) :=
  (W5_of_ne m ρ c main_v8 (by decide)).trans (sources4 m ρ c)

theorem sources6 : W6 m ρ c (Proc.devRef .tc main_v8) = Cert.ReferenceIdeal.Read.val_main_v13 (F := Ideal) (m ((c : Thread nD τ).loc main_arg3)) :=
  (keepHost3 m ρ c main_v8 (by decide)).trans (sources5 m ρ c)

theorem sources7 : W7 m ρ c (Proc.devRef .tc main_v8) = Cert.ReferenceIdeal.Read.val_main_v13 (F := Ideal) (m ((c : Thread nD τ).loc main_arg3)) :=
  (W7_of_ne m ρ c main_v8 (by decide)).trans (sources6 m ρ c)

theorem sources8 : W8 m ρ c (Proc.devRef .tc main_v8) = Cert.ReferenceIdeal.Read.val_main_v13 (F := Ideal) (m ((c : Thread nD τ).loc main_arg3)) :=
  (keepHost4 m ρ c main_v8 (by decide)).trans (sources7 m ρ c)

theorem sources9 : W9 m ρ c (Proc.devRef .tc main_v8) = Cert.ReferenceIdeal.Read.val_main_v13 (F := Ideal) (m ((c : Thread nD τ).loc main_arg3)) :=
  (W9_of_ne m ρ c main_v8 (by decide)).trans (sources8 m ρ c)

theorem targets5 : W5 m ρ c (Proc.devRef .tc main_v10) = Cert.ReferenceIdeal.Read.val_main_v15 (F := Ideal) (m ((c : Thread nD τ).loc main_arg3)) :=
  (W5_of_ne m ρ c main_v10 (by decide)).trans (targets4 m ρ c)

theorem targets6 : W6 m ρ c (Proc.devRef .tc main_v10) = Cert.ReferenceIdeal.Read.val_main_v15 (F := Ideal) (m ((c : Thread nD τ).loc main_arg3)) :=
  (keepHost3 m ρ c main_v10 (by decide)).trans (targets5 m ρ c)

theorem targets7 : W7 m ρ c (Proc.devRef .tc main_v10) = Cert.ReferenceIdeal.Read.val_main_v15 (F := Ideal) (m ((c : Thread nD τ).loc main_arg3)) :=
  (W7_of_ne m ρ c main_v10 (by decide)).trans (targets6 m ρ c)

theorem targets8 : W8 m ρ c (Proc.devRef .tc main_v10) = Cert.ReferenceIdeal.Read.val_main_v15 (F := Ideal) (m ((c : Thread nD τ).loc main_arg3)) :=
  (keepHost4 m ρ c main_v10 (by decide)).trans (targets7 m ρ c)

theorem targets9 : W9 m ρ c (Proc.devRef .tc main_v10) = Cert.ReferenceIdeal.Read.val_main_v15 (F := Ideal) (m ((c : Thread nD τ).loc main_arg3)) :=
  (W9_of_ne m ρ c main_v10 (by decide)).trans (targets8 m ρ c)

/-! ## Layer 1 -/

/-- After region 2: the layer's affine image of what the region found. -/
theorem layer1 : W5 m ρ c (Proc.devRef .tc main_v11) = Cert.ReferenceIdeal.Read.val_main_v19 (F := Ideal) (m ((c : Thread nD τ).loc main_arg0)) (m ((c : Thread nD τ).loc main_arg1)) (m ((c : Thread nD τ).loc main_arg2)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W5_arr m ρ c 3).trans (Region2.final (V4 m ρ) c)).trans ?_
  show Region2.layer (W4 m ρ c (Proc.devRef .tc main_v6)) (W4 m ρ c (Proc.devRef .tc main_arg9)) (W4 m ρ c (Proc.devRef .tc main_arg10)) = _
  rw [nodeEmbedding4 m ρ c, launched4 m ρ c main_arg9 (by decide) (by decide) (by decide) (by decide), launched4 m ρ c main_arg10 (by decide) (by decide) (by decide) (by decide)]
  rfl

/-- After the next host stretch: each edge's value times the layer's row at its destination, summed per source node. -/
theorem messages1 : W6 m ρ c (Proc.devRef .tc main_v24) = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) := by
  show after hostOps3 (W5 m ρ c) (Proc.devRef .tc main_v24) = _
  dsimp only [hostOps3]
  after_results_simp
  rw [layer1 m ρ c, targets5 m ρ c, sources5 m ρ c, launched5 m ρ c main_arg4 (by decide) (by decide) (by decide) (by decide) (by decide)]
  rfl

/-! ## Layer 2 -/

/-- After region 3: the layer's affine image of what the region found. -/
theorem layer2 : W7 m ρ c (Proc.devRef .tc main_v25) = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine ((W7_arr m ρ c 3).trans (Region3.final (V6 m ρ) c)).trans ?_
  show Region3.layer (W6 m ρ c (Proc.devRef .tc main_v24)) (W6 m ρ c (Proc.devRef .tc main_arg11)) (W6 m ρ c (Proc.devRef .tc main_arg12)) = _
  rw [messages1 m ρ c, launched6 m ρ c main_arg11 (by decide) (by decide) (by decide) (by decide) (by decide) (by decide), launched6 m ρ c main_arg12 (by decide) (by decide) (by decide) (by decide) (by decide) (by decide)]
  rfl

/-- After the next host stretch: each edge's value times the layer's row at its destination, summed per source node. -/
theorem messages2 : W8 m ρ c (Proc.devRef .tc main_v38) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show after hostOps4 (W7 m ρ c) (Proc.devRef .tc main_v38) = _
  dsimp only [hostOps4]
  after_results_simp
  rw [layer2 m ρ c, targets7 m ρ c, sources7 m ρ c, launched7 m ρ c main_arg4 (by decide) (by decide) (by decide) (by decide) (by decide) (by decide) (by decide)]
  rfl

/-! ## Layer 3, the clamp and the sum per graph -/

theorem layer3 : W9 m ρ c (Proc.devRef .tc main_v39) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine ((W9_arr m ρ c 3).trans (Region4.final (V8 m ρ) c)).trans ?_
  show Region4.layer (W8 m ρ c (Proc.devRef .tc main_v38)) (W8 m ρ c (Proc.devRef .tc main_arg13)) (W8 m ρ c (Proc.devRef .tc main_arg14)) = _
  rw [messages2 m ρ c, launched8 m ρ c main_arg13 (by decide) (by decide) (by decide) (by decide) (by decide) (by decide) (by decide) (by decide), launched8 m ρ c main_arg14 (by decide) (by decide) (by decide) (by decide) (by decide) (by decide) (by decide) (by decide)]
  rfl

/-- After the last host stretch: the third layer's messages summed per source node, clamped at zero, summed per graph. -/
theorem pooled : W10 m ρ c (Proc.devRef .tc main_v57) = Cert.ReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show after hostOps5 (W9 m ρ c) (Proc.devRef .tc main_v57) = _
  dsimp only [hostOps5]
  after_results_simp
  rw [layer3 m ρ c, targets9 m ρ c, sources9 m ρ c, launched9 m ρ c main_arg4 (by decide) (by decide) (by decide) (by decide) (by decide) (by decide) (by decide) (by decide) (by decide), launched9 m ρ c main_arg5 (by decide) (by decide) (by decide) (by decide) (by decide) (by decide) (by decide) (by decide) (by decide)]
  rfl

/-! ## The prediction -/

/-- After region 5 the kernel's result array is the reference's result term of the launch arrays. -/
theorem result : W11 m ρ c (Proc.devRef .tc main_v58) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine ((W11_arr m ρ c 5).trans (Region5.final (V10 m ρ) c)).trans ?_
  show Region5.predict (W10 m ρ c (Proc.devRef .tc main_v57)) (W10 m ρ c (Proc.devRef .tc main_arg15)) (W10 m ρ c (Proc.devRef .tc main_arg16)) (W10 m ρ c (Proc.devRef .tc main_arg17)) (W10 m ρ c (Proc.devRef .tc main_arg18)) = _
  rw [pooled m ρ c, launched10 m ρ c main_arg15 (by decide) (by decide) (by decide) (by decide) (by decide) (by decide) (by decide) (by decide) (by decide) (by decide), launched10 m ρ c main_arg16 (by decide) (by decide) (by decide) (by decide) (by decide) (by decide) (by decide) (by decide) (by decide) (by decide), launched10 m ρ c main_arg17 (by decide) (by decide) (by decide) (by decide) (by decide) (by decide) (by decide) (by decide) (by decide) (by decide), launched10 m ρ c main_arg18 (by decide) (by decide) (by decide) (by decide) (by decide) (by decide) (by decide) (by decide) (by decide) (by decide)]
  rfl

end Cert.Gnn.Walk

end
-- ==== Proof.lean ====
/-
  A graph network on 100000 nodes and 1600000 edges: an edge embedding summed into the nodes, a node embedding, three
  graph-convolution layers, a sum per graph and a two-layer predictor on the 2048 graphs.

  The kernel computes every dense piece on the vector unit, tiled over rows — edge_attr · W_edge in 200 blocks of 8000
  edges; relu(node_attr · W_node + agg + b) and each layer's h · W + b in 20 blocks of 5000 nodes; the predictor in one
  block — with the operands cast to bf16 and accumulated in f32, and leaves the irregular pieces (the sum of edge rows per
  node, the gather of a node row per edge, the sum per graph) to the same host scatter and gather operations the reference
  uses; the clamp after each layer is fused into the next dense piece.  The reference computes the same chain with whole
  array dot_generals.

  At the ideal values a change of float format is the identity and a product into a zero accumulator is the plain sum
  Σ_k l[p,k] · r[k,q], which is what the host's dot_general is; no contraction axis is split, so no sum is regrouped, and the
  additions and the maximum occur in the same order on both sides.  Row p of block t of a dense piece is therefore row
  (block height)·t + p of the reference's stage, the blocks tile their arrays, and each output array after its region is the
  reference's stage of the arrays the region found (Region0 … Region5).  The host operations between the regions are the
  reference's own, applied to equal operands.  Walking the eleven segments from the launch memory (Walk), the kernel's result
  array ends at the reference's result term of the nineteen argument arrays; the two programs, run from memories that
  agree on the arguments, end with equal results.  No law of the extended reals beyond the definitions is used, so the
  finiteness of the inputs is never needed.

  The three frames: the kernel's and its idealization's are the generated launch proofs; the reference's is its generated
  run with the result dropped.  The idealization rewrote no operation, so there is nothing to preserve.
-/
import proofs.«145433_j32727650796179_1_alg».proof.Defs
import proofs.«145433_j32727650796179_1_alg».proof.Proof.Gen.Kernel
import proofs.«145433_j32727650796179_1_alg».proof.Proof.Gen.Kernel.Skeleton
import proofs.«145433_j32727650796179_1_alg».proof.Proof.Gen.Kernel.Launch
import proofs.«145433_j32727650796179_1_alg».proof.Proof.Gen.Kernel.Points
import proofs.«145433_j32727650796179_1_alg».proof.Proof.Gen.Kernel.Frame
import proofs.«145433_j32727650796179_1_alg».proof.Proof.Gen.KernelIdeal
import proofs.«145433_j32727650796179_1_alg».proof.Proof.Gen.KernelIdeal.Skeleton
import proofs.«145433_j32727650796179_1_alg».proof.Proof.Gen.KernelIdeal.Launch
import proofs.«145433_j32727650796179_1_alg».proof.Proof.Gen.KernelIdeal.Points
import proofs.«145433_j32727650796179_1_alg».proof.Proof.Gen.KernelIdeal.Frame
import proofs.«145433_j32727650796179_1_alg».proof.Proof.Gen.ReferenceIdeal
import proofs.«145433_j32727650796179_1_alg».proof.Proof.Gen.ReferenceIdeal.Run
import proofs.«145433_j32727650796179_1_alg».proof.Proof.Gen.ReferenceIdeal.Read
import proofs.«145433_j32727650796179_1_alg».proof.Proof.Gen.Pre_finite_inputs
import proofs.«145433_j32727650796179_1_alg».proof.Proof.KernelRun
import proofs.«145433_j32727650796179_1_alg».proof.Proof.Walk
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization is the program's own text read at the ideal values: no operation was rewritten. -/
theorem preserves : Cert.preserves_Kernel_KernelIdeal := trivial

/-- From memories agreeing on the arguments both programs end with the reference's result term of the kernel's launch
    arrays: the kernel by the walk through its segments, the reference by its run, the agreement rewritten. -/
theorem algebraic : Cert.algebraic_KernelIdeal_ReferenceIdeal := by
  intro m ρ m' ρ' _ hagree
  refine ⟨_, (θ_run Cert.KernelIdeal.defs _ _).mono
      (fun r h c => ⟨(h c).1.trans (Cert.Gnn.Walk.result m ρ c), (h c).2⟩) (Cert.Gnn.KernelRun.run_result m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.ReferenceIdeal.Read.val_main_v81_eq, h0, h1, h2, h3, h4, h5, h6, h7, h8, h9, h10, h11, h12, h13, h14, h15, h16, h17, h18]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
